-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S64 .f32) (main_arg6 : FVec F S64x2 .f32) (main_arg7 : FVec F S2 .f32) (main_arg8 : FVec F S128 .f32) (main_arg9 : FVec F S128 .f32) (main_arg10 : FVec F S128 .f32) (main_arg11 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x2 .f32) (main_arg7 : FVec F S2 .f32) (main_arg8 : FVec F S128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S50000x2 : Shape := ⟨2, ![50000, 2]⟩
abbrev S10000x2 : Shape := ⟨2, ![10000, 2]⟩
abbrev S850000x2 : Shape := ⟨2, ![850000, 2]⟩
abbrev S1x2 : Shape := ⟨2, ![1, 2]⟩

abbrev nBuf : Space → Nat
  | .hbm => 113
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S_, .f32⟩
  | .hbm, ⟨30, _⟩ => ⟨S850000, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S50000x64, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x64, .f32⟩
  | .hbm, ⟨85, _⟩ => ⟨S850000x1, .f32⟩
  | .hbm, ⟨86, _⟩ => ⟨S850000x64, .f32⟩
  | .hbm, ⟨87, _⟩ => ⟨S850000x64, .f32⟩
  | .hbm, ⟨88, _⟩ => ⟨S_, .f32⟩
  | .hbm, ⟨89, _⟩ => ⟨S50000x64, .f32⟩
  | .hbm, ⟨90, _⟩ => ⟨S850000x1, .i32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x2, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x2, .f32⟩
  | .hbm, ⟨104, _⟩ => ⟨S850000x1, .f32⟩
  | .hbm, ⟨105, _⟩ => ⟨S850000x2, .f32⟩
  | .hbm, ⟨106, _⟩ => ⟨S850000x2, .f32⟩
  | .hbm, ⟨107, _⟩ => ⟨S_, .f32⟩
  | .hbm, ⟨108, _⟩ => ⟨S50000x2, .f32⟩
  | .hbm, ⟨109, _⟩ => ⟨S850000x1, .i32⟩
  | .hbm, ⟨110, _⟩ => ⟨S50000x2, .f32⟩
  | .hbm, ⟨111, _⟩ => ⟨S1x2, .f32⟩
  | .hbm, ⟨112, _⟩ => ⟨S50000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x2, .f32⟩
  | .local _ .vmem, ⟨27, _⟩ => ⟨S10000x2, .f32⟩
  | .local _ .vmem, ⟨28, _⟩ => ⟨S10000x2, .f32⟩
  | .local _ .vmem, ⟨29, _⟩ => ⟨S10000x2, .f32⟩
  | .local _ .vmem, ⟨30, _⟩ => ⟨S10000x2, .f32⟩
  | .local _ .vmem, ⟨31, _⟩ => ⟨S1x2, .f32⟩
  | .local _ .vmem, ⟨32, _⟩ => ⟨S10000x2, .f32⟩
  | .local _ .vmem, ⟨33, _⟩ => ⟨S10000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x2_S10000x2_1_0_0_1_n_n_wf : DotDims.WF S10000x64 S64x2 S10000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S50000x2.size a
  hwx4_2 : ∀ i : grid4.Coords, EltTy.bits .f32 = 32 ∨ (Rect.block (s := S50000x2) S10000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S50000x2.size a
  hwx5_0 : ∀ i : grid5.Coords, EltTy.bits .f32 = 32 ∨ (Rect.block (s := S50000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S50000x2.size a
  hwx5_2 : ∀ i : grid5.Coords, EltTy.bits .f32 = 32 ∨ (Rect.block (s := S50000x2) S10000x2.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 209
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x2, .f32⟩
  | 7 => ⟨S2, .f32⟩
  | 8 => ⟨S128, .f32⟩
  | 9 => ⟨S128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S50000, .i32⟩
  | 18 => ⟨S850000, .i32⟩
  | 19 => ⟨S50000, .i32⟩
  | 20 => ⟨S850000, .i32⟩
  | 21 => ⟨S_, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S_, .f32⟩
  | 32 => ⟨S850000, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x64, .f32⟩
  | 93 => ⟨S50000, .i32⟩
  | 94 => ⟨S850000, .i32⟩
  | 95 => ⟨S50000, .i32⟩
  | 96 => ⟨S850000, .i32⟩
  | 97 => ⟨S_, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S_, .f32⟩
  | 108 => ⟨S850000, .f32⟩
  | 109 => ⟨S50000, .f32⟩
  | 110 => ⟨S50000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000, .f32⟩
  | 1 => ⟨S850000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000x64, .f32⟩
  | 11 => ⟨S850000x1, .f32⟩
  | 12 => ⟨S850000x64, .f32⟩
  | 13 => ⟨S850000x64, .f32⟩
  | 14 => ⟨S_, .f32⟩
  | 15 => ⟨S50000x64, .f32⟩
  | 16 => ⟨S850000x1, .i32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x2, .f32⟩
  | 25 => ⟨S50000, .i32⟩
  | 26 => ⟨S850000, .i32⟩
  | 27 => ⟨S50000, .i32⟩
  | 28 => ⟨S850000, .i32⟩
  | 29 => ⟨S_, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S_, .f32⟩
  | 40 => ⟨S850000, .f32⟩
  | 41 => ⟨S50000, .f32⟩
  | 42 => ⟨S50000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S850000, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x2, .f32⟩
  | 71 => ⟨S850000x1, .f32⟩
  | 72 => ⟨S850000x2, .f32⟩
  | 73 => ⟨S850000x2, .f32⟩
  | 74 => ⟨S_, .f32⟩
  | 75 => ⟨S50000x2, .f32⟩
  | 76 => ⟨S850000x1, .i32⟩
  | 77 => ⟨S50000x2, .f32⟩
  | 78 => ⟨S1x2, .f32⟩
  | 79 => ⟨S50000x2, .f32⟩
  | 80 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call0_cst : Ref sig .tc := ⟨.hbm, 89, rfl⟩
abbrev main_call0_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_14 : Ref sig .tc := ⟨.hbm, 111, rfl⟩
abbrev main_v81 : Ref sig .tc := ⟨.hbm, 112, rfl⟩
abbrev main_v82 : Ref sig .tc := ⟨.hbm, 113, rfl⟩
abbrev main_c_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_16 : Ref sig .tc := ⟨.hbm, 120, rfl⟩
abbrev main_v88 : Ref sig .tc := ⟨.hbm, 121, rfl⟩
abbrev main_v89 : Ref sig .tc := ⟨.hbm, 122, rfl⟩
abbrev main_c_17 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_18 : Ref sig .tc := ⟨.hbm, 130, rfl⟩
abbrev main_v96 : Ref sig .tc := ⟨.hbm, 131, rfl⟩
abbrev main_v97 : Ref sig .tc := ⟨.hbm, 132, rfl⟩
abbrev main_c_19 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_20 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_call1_cst : Ref sig .tc := ⟨.hbm, 149, rfl⟩
abbrev main_call1_v0 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_21 : Ref sig .tc := ⟨.hbm, 157, rfl⟩
abbrev main_v118 : Ref sig .tc := ⟨.hbm, 158, rfl⟩
abbrev main_c_22 : Ref sig .tc := ⟨.hbm, 159, rfl⟩
abbrev main_v119 : Ref sig .tc := ⟨.hbm, 160, rfl⟩
abbrev main_v120 : Ref sig .tc := ⟨.hbm, 161, rfl⟩
abbrev main_c_23 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_24 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_25 : Ref sig .tc := ⟨.hbm, 171, rfl⟩
abbrev main_v128 : Ref sig .tc := ⟨.hbm, 172, rfl⟩
abbrev main_v129 : Ref sig .tc := ⟨.hbm, 173, rfl⟩
abbrev main_c_26 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_27 : Ref sig .tc := ⟨.hbm, 180, rfl⟩
abbrev main_v135 : Ref sig .tc := ⟨.hbm, 181, rfl⟩
abbrev main_v136 : Ref sig .tc := ⟨.hbm, 182, rfl⟩
abbrev main_c_28 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_29 : Ref sig .tc := ⟨.hbm, 190, rfl⟩
abbrev main_v143 : Ref sig .tc := ⟨.hbm, 191, rfl⟩
abbrev main_v144 : Ref sig .tc := ⟨.hbm, 192, rfl⟩
abbrev main_c_30 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_31 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x2_S50000x2_1_0_0_1_n_n_wf : DotDims.WF S50000x64 S64x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KernelRun.lean ====
/-
  The idealized kernel program's run with its result array named.

  The program is six tiled kernel launches among four stretches of host operations. Its buffer contents at every
  boundary are a fold from the launch memory: a host stretch applies its operations, a launch replaces its output
  array by what its grid points write back and leaves every other buffer as it was. Every weakly fair execution
  terminates without a fault in a state whose unscoped buffers hold the last boundary's contents; read at the
  program's result buffer this names the result as the last launch's output array, and read at the argument
  buffers it says the arguments end as launched.
-/
import proofs.«140293_j22917945492092_2_alg».proof.Proof.Gen.KernelIdeal.Frame

set_option maxRecDepth 16384

noncomputable section

namespace Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents (the sixth launch's output array) and the argument arrays as launched. -/
theorem run_named : θ_run defs (onTc (τ := τ) (main (F := F))) ⟨m, fun _ => 0, ρ⟩ (fun r => ∀ c : Dev nD,
      r.2.mem ((c.tc : Thread nD τ).loc main_v83) = W10 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v83 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Gcn.KernelRun

end
-- ==== Proof.HostSpec.lean ====
/-
  The host side of the network, as composites of host operations.

  Both programs aggregate along the edges with the same host operations: the edge list gets one self loop per node
  (sources `srcIdx`, destinations `dstIdx`), an index column is wrapped (a negative index gets the node count added)
  before it addresses a gather, the degree of a node is the scatter-sum of ones at the destinations, an edge's weight is
  the product of the reciprocal roots of the degrees of its two ends, and a layer's aggregation gathers the projected
  rows at the sources, scales each by its edge's weight and scatter-sums them at the destinations. These composites
  are named here once, as functions of their inputs, and are never opened: the two programs apply the same composite
  to values that are proved equal. The reference's dense stages (matrix product; bias, normalisation, rectifier) are
  named as well, and the whole network as their composition.
-/
import proofs.«140293_j22917945492092_2_alg».proof.ReferenceIdeal

noncomputable section

namespace Gcn.Host

open Idealize.ShloMosaic Cert.ReferenceIdeal

variable {F : FTy → Type} [FloatOps F] [Cert.ReferenceIdeal.Facts]

open Cert.ReferenceIdeal.Facts₀ Cert.ReferenceIdeal.Facts

/-- The edge sources followed by one self loop per node. -/
def srcIdx (A1 : (⟨S2x800000, .i32⟩ : BufTy).Contents (Elt F)) : (⟨S850000, .i32⟩ : BufTy).Contents (Elt F) :=
  (concatenate S850000 0 [⟨S800000, (shapeCast _ (extractStridedSlice S1x800000 ![0, 0] A1 slices_S2x800000_S1x800000_0_0) shapeCasts_S1x800000_S800000)⟩, ⟨S50000, (iotaInDim S50000 32 0)⟩] concatenates_S800000_S50000_S850000_d0)

/-- The edge destinations followed by one self loop per node. -/
def dstIdx (A1 : (⟨S2x800000, .i32⟩ : BufTy).Contents (Elt F)) : (⟨S850000, .i32⟩ : BufTy).Contents (Elt F) :=
  (concatenate S850000 0 [⟨S800000, (shapeCast _ (extractStridedSlice S1x800000 ![1, 0] A1 slices_S2x800000_S1x800000_1_0) shapeCasts_S1x800000_S800000)⟩, ⟨S50000, (iotaInDim S50000 32 0)⟩] concatenates_S800000_S50000_S850000_d0)

/-- An index vector as a column, a negative index wrapped by the node count. -/
def wrapCol (X : (⟨S850000, .i32⟩ : BufTy).Contents (Elt F)) : (⟨S850000x1, .i32⟩ : BufTy).Contents (Elt F) :=
  (broadcastInDim S850000x1 ![0] bcast_S850000_S850000x1_0 (select (cmpi .slt X (broadcastInDim S850000 ![] bcast_S_S850000 (constantI S_ 32 0#32))) (addi X (broadcastInDim S850000 ![] bcast_S_S850000 (constantI S_ 32 50000#32))) X))

/-- The reciprocal root of every node's degree (the scatter-sum of ones at the destinations). -/
def invSqrtDeg (D : (⟨S850000, .i32⟩ : BufTy).Contents (Elt F)) : (⟨S50000, .f32⟩ : BufTy).Contents (Elt F) :=
  (Host.rsqrt (Host.scatterAdd scatter_S50000_S850000x1_S850000_n_0_0_1 (broadcastInDim S50000 ![] bcast_S_S50000 (constant S_ .f32 0x00000000#32)) (wrapCol D) (broadcastInDim S850000 ![] bcast_S_S850000 (constant S_ .f32 0x3F800000#32))))

/-- An edge's weight: the product of the reciprocal roots of the degrees of its two ends. -/
def edgeNorm (S D : (⟨S850000, .i32⟩ : BufTy).Contents (Elt F)) : (⟨S850000, .f32⟩ : BufTy).Contents (Elt F) :=
  (mulf (Host.gather gather_S50000_S850000x1_S850000_n_0_n_n_0_1_1 (invSqrtDeg D) (wrapCol S)) (Host.gather gather_S50000_S850000x1_S850000_n_0_n_n_0_1_1 (invSqrtDeg D) (wrapCol D)))

/-- A layer's aggregation at width 128: gather the rows at the sources, scale each by its edge's weight, scatter-sum at the
    destinations. -/
def aggOf128 (S D : (⟨S850000, .i32⟩ : BufTy).Contents (Elt F)) (N : (⟨S850000, .f32⟩ : BufTy).Contents (Elt F)) (H : (⟨S50000x128, .f32⟩ : BufTy).Contents (Elt F)) : (⟨S50000x128, .f32⟩ : BufTy).Contents (Elt F) :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 D) (mulf (Host.gather gather_S50000x128_S850000x1_S850000x128_1_0_n_n_0_1_1128 H (wrapCol S)) (broadcastInDim S850000x128 ![0, 1] bcast_S850000x1_S850000x128_0_1 (broadcastInDim S850000x1 ![0] bcast_S850000_S850000x1_0 N))))

/-- A layer's aggregation at width 64: gather the rows at the sources, scale each by its edge's weight, scatter-sum at the
    destinations. -/
def aggOf64 (S D : (⟨S850000, .i32⟩ : BufTy).Contents (Elt F)) (N : (⟨S850000, .f32⟩ : BufTy).Contents (Elt F)) (H : (⟨S50000x64, .f32⟩ : BufTy).Contents (Elt F)) : (⟨S50000x64, .f32⟩ : BufTy).Contents (Elt F) :=
  (Host.scatterAdd scatter_S50000x64_S850000x1_S850000x64_1_0_0_1 (broadcastInDim S50000x64 ![] bcast_S_S50000x64 (constant S_ .f32 0x00000000#32)) (broadcastInDim S850000x1 ![0] bcast_S850000_S850000x1_0 D) (mulf (Host.gather gather_S50000x64_S850000x1_S850000x64_1_0_n_n_0_1_164 H (wrapCol S)) (broadcastInDim S850000x64 ![0, 1] bcast_S850000x1_S850000x64_0_1 (broadcastInDim S850000x1 ![0] bcast_S850000_S850000x1_0 N))))

/-- A layer's aggregation at width 2: gather the rows at the sources, scale each by its edge's weight, scatter-sum at the
    destinations. -/
def aggOf2 (S D : (⟨S850000, .i32⟩ : BufTy).Contents (Elt F)) (N : (⟨S850000, .f32⟩ : BufTy).Contents (Elt F)) (H : (⟨S50000x2, .f32⟩ : BufTy).Contents (Elt F)) : (⟨S50000x2, .f32⟩ : BufTy).Contents (Elt F) :=
  (Host.scatterAdd scatter_S50000x2_S850000x1_S850000x2_1_0_0_1 (broadcastInDim S50000x2 ![] bcast_S_S50000x2 (constant S_ .f32 0x00000000#32)) (broadcastInDim S850000x1 ![0] bcast_S850000_S850000x1_0 D) (mulf (Host.gather gather_S50000x2_S850000x1_S850000x2_1_0_n_n_0_1_12 H (wrapCol S)) (broadcastInDim S850000x2 ![0, 1] bcast_S850000x1_S850000x2_0_1 (broadcastInDim S850000x1 ![0] bcast_S850000_S850000x1_0 N))))

/-- The reference's three matrix products. -/
def dense1 (x : (⟨S50000x128, .f32⟩ : BufTy).Contents (Elt F)) (w : (⟨S128x128, .f32⟩ : BufTy).Contents (Elt F)) : (⟨S50000x128, .f32⟩ : BufTy).Contents (Elt F) :=
  (Host.dotGeneral dot_S50000x128_S128x128_S50000x128_1_0_0_1_n_n none x w)
def dense2 (x : (⟨S50000x128, .f32⟩ : BufTy).Contents (Elt F)) (w : (⟨S128x64, .f32⟩ : BufTy).Contents (Elt F)) : (⟨S50000x64, .f32⟩ : BufTy).Contents (Elt F) :=
  (Host.dotGeneral dot_S50000x128_S128x64_S50000x64_1_0_0_1_n_n none x w)
def dense3 (x : (⟨S50000x64, .f32⟩ : BufTy).Contents (Elt F)) (w : (⟨S64x2, .f32⟩ : BufTy).Contents (Elt F)) : (⟨S50000x2, .f32⟩ : BufTy).Contents (Elt F) :=
  (Host.dotGeneral dot_S50000x64_S64x2_S50000x2_1_0_0_1_n_n none x w)

/-- The reference's first entry-wise stage: bias, normalisation with fixed statistics, rectifier. -/
def act1 (a : (⟨S50000x128, .f32⟩ : BufTy).Contents (Elt F)) (b g be mu va : (⟨S128, .f32⟩ : BufTy).Contents (Elt F)) : (⟨S50000x128, .f32⟩ : BufTy).Contents (Elt F) :=
  (maximumf (addf (mulf (mulf (subf (addf a (broadcastInDim S50000x128 ![0, 1] bcast_S1x128_S50000x128_0_1 (broadcastInDim S1x128 ![1] bcast_S128_S1x128_1 b))) (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf va (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 be))) (broadcastInDim S50000x128 ![] bcast_S_S50000x128 (constant S_ .f32 0x00000000#32)))

/-- The reference's second entry-wise stage: bias and rectifier. -/
def act2 (a : (⟨S50000x64, .f32⟩ : BufTy).Contents (Elt F)) (b : (⟨S64, .f32⟩ : BufTy).Contents (Elt F)) : (⟨S50000x64, .f32⟩ : BufTy).Contents (Elt F) :=
  (maximumf (addf a (broadcastInDim S50000x64 ![0, 1] bcast_S1x64_S50000x64_0_1 (broadcastInDim S1x64 ![1] bcast_S64_S1x64_1 b))) (broadcastInDim S50000x64 ![] bcast_S_S50000x64 (constant S_ .f32 0x00000000#32)))

/-- The reference's last entry-wise stage: bias. -/
def act3 (a : (⟨S50000x2, .f32⟩ : BufTy).Contents (Elt F)) (b : (⟨S2, .f32⟩ : BufTy).Contents (Elt F)) : (⟨S50000x2, .f32⟩ : BufTy).Contents (Elt F) :=
  addf a (broadcastInDim S50000x2 ![0, 1] bcast_S1x2_S50000x2_0_1 (broadcastInDim S1x2 ![1] bcast_S2_S1x2_1 b))

/-- The whole network as the composition of the stages. -/
def net (A0 : (⟨S50000x128, .f32⟩ : BufTy).Contents (Elt F)) (A1 : (⟨S2x800000, .i32⟩ : BufTy).Contents (Elt F)) (A2 : (⟨S128x128, .f32⟩ : BufTy).Contents (Elt F)) (A3 : (⟨S128, .f32⟩ : BufTy).Contents (Elt F))
    (A4 : (⟨S128x64, .f32⟩ : BufTy).Contents (Elt F)) (A5 : (⟨S64, .f32⟩ : BufTy).Contents (Elt F)) (A6 : (⟨S64x2, .f32⟩ : BufTy).Contents (Elt F)) (A7 : (⟨S2, .f32⟩ : BufTy).Contents (Elt F))
    (A8 A9 A10 A11 : (⟨S128, .f32⟩ : BufTy).Contents (Elt F)) : (⟨S50000x2, .f32⟩ : BufTy).Contents (Elt F) :=
  act3 (aggOf2 (srcIdx A1) (dstIdx A1) (edgeNorm (srcIdx A1) (dstIdx A1))
    (dense3 (act2 (aggOf64 (srcIdx A1) (dstIdx A1) (edgeNorm (srcIdx A1) (dstIdx A1))
      (dense2 (act1 (aggOf128 (srcIdx A1) (dstIdx A1) (edgeNorm (srcIdx A1) (dstIdx A1)) (dense1 A0 A2)) A3 A8 A9 A10 A11) A4)) A5) A6)) A7

end Gcn.Host

end
-- ==== Proof.Spec.lean ====
/-
  The dense stages of a three-layer graph convolution network, entry by entry, on the extended reals.

  A layer multiplies the node features by a weight matrix, aggregates the projected rows along the edges, and then
  applies an entry-wise stage: a bias row added to every row, in the first layer followed by a normalisation with fixed
  statistics (subtract a mean row, scale by the reciprocal root of a variance row plus a small constant, scale by a
  gain row, add a shift row), and in the first two layers a rectifier. This module states those dense stages as
  functions of the entry; the aggregation along the edges is the same composite of host operations in both programs
  and is never opened.
-/
import Idealize.ShloMosaic.PureOps.Ideal
import Idealize.ShloMosaic.Lib.ValueIdx

noncomputable section

namespace Gcn.Spec

open Idealize.ShloMosaic Idealize.ShloMosaic.ValueIdx

/-- An `a × b` matrix of extended reals. -/
abbrev Mat (a b : ℕ) := FVec Ideal ⟨2, ![a, b]⟩ .f32
/-- A vector of `b` extended reals. -/
abbrev Row (b : ℕ) := FVec Ideal ⟨1, ![b]⟩ .f32

/-- The projection `x · w`: entry `(p, q)` is the sum over `k` of `x (p, k) * w (k, q)`. -/
def proj {M K N : ℕ} (x : Mat M K) (w : Mat K N) : Mat M N :=
  fun i => ∑ k : Fin K, x (ix2 (i 0) k) * w (ix2 k (i 1))

theorem proj_apply {M K N : ℕ} (x : Mat M K) (w : Mat K N) (p : Fin M) (q : Fin N) :
    proj x w (ix2 p q) = ∑ k : Fin K, x (ix2 p k) * w (ix2 k q) := rfl

/-- Bias, normalisation with fixed statistics and rectifier, the five rows given as `1 × b` matrices:
    entry `(p, q)` is `max (((agg (p,q) + bias q) - mean q) * rsqrt (var q + eps) * gamma q + beta q) 0`. -/
def normAct {a b : ℕ} (eps : BitVec 32) (agg : Mat a b) (bias gamma beta mean var : Mat 1 b) : Mat a b :=
  fun i => max ((((agg i + bias (ix2 0 (i 1))) - mean (ix2 0 (i 1)))
      * Ideal.rsqrt (var (ix2 0 (i 1)) + Ideal.ofBits .f32 eps)) * gamma (ix2 0 (i 1)) + beta (ix2 0 (i 1)))
    (Ideal.ofBits .f32 0x00000000#32)

/-- The same with the five rows given as vectors. -/
def normActV {a b : ℕ} (eps : BitVec 32) (agg : Mat a b) (bias gamma beta mean var : Row b) : Mat a b :=
  fun i => max ((((agg i + bias (ix1 (i 1))) - mean (ix1 (i 1)))
      * Ideal.rsqrt (var (ix1 (i 1)) + Ideal.ofBits .f32 eps)) * gamma (ix1 (i 1)) + beta (ix1 (i 1)))
    (Ideal.ofBits .f32 0x00000000#32)

/-- Bias and rectifier, the bias a `1 × b` matrix: entry `(p, q)` is `max (agg (p,q) + bias q) 0`. -/
def biasAct {a b : ℕ} (agg : Mat a b) (bias : Mat 1 b) : Mat a b :=
  fun i => max (agg i + bias (ix2 0 (i 1))) (Ideal.ofBits .f32 0x00000000#32)

/-- The same with the bias a vector. -/
def biasActV {a b : ℕ} (agg : Mat a b) (bias : Row b) : Mat a b :=
  fun i => max (agg i + bias (ix1 (i 1))) (Ideal.ofBits .f32 0x00000000#32)

/-- Bias alone, the bias a `1 × b` matrix: entry `(p, q)` is `agg (p,q) + bias q`. -/
def biasOnly {a b : ℕ} (agg : Mat a b) (bias : Mat 1 b) : Mat a b :=
  fun i => agg i + bias (ix2 0 (i 1))

/-- The same with the bias a vector. -/
def biasOnlyV {a b : ℕ} (agg : Mat a b) (bias : Row b) : Mat a b :=
  fun i => agg i + bias (ix1 (i 1))

/-- When each `1 × b` row matrix reads, at `(0, q)`, its vector at `q`, the two forms of the normalised stage agree. -/
theorem normAct_eq_V {a b : ℕ} (eps : BitVec 32) (agg : Mat a b) (bias gamma beta mean var : Mat 1 b)
    (bias' gamma' beta' mean' var' : Row b)
    (h1 : ∀ q : Fin b, bias (ix2 0 q) = bias' (ix1 q)) (h2 : ∀ q : Fin b, gamma (ix2 0 q) = gamma' (ix1 q))
    (h3 : ∀ q : Fin b, beta (ix2 0 q) = beta' (ix1 q)) (h4 : ∀ q : Fin b, mean (ix2 0 q) = mean' (ix1 q))
    (h5 : ∀ q : Fin b, var (ix2 0 q) = var' (ix1 q)) :
    normAct eps agg bias gamma beta mean var = normActV eps agg bias' gamma' beta' mean' var' := by
  funext i
  simp only [normAct, normActV]
  rw [h1 (i 1), h2 (i 1), h3 (i 1), h4 (i 1), h5 (i 1)]

theorem biasAct_eq_V {a b : ℕ} (agg : Mat a b) (bias : Mat 1 b) (bias' : Row b)
    (h1 : ∀ q : Fin b, bias (ix2 0 q) = bias' (ix1 q)) : biasAct agg bias = biasActV agg bias' := by
  funext i
  simp only [biasAct, biasActV]
  rw [h1 (i 1)]

theorem biasOnly_eq_V {a b : ℕ} (agg : Mat a b) (bias : Mat 1 b) (bias' : Row b)
    (h1 : ∀ q : Fin b, bias (ix2 0 q) = bias' (ix1 q)) : biasOnly agg bias = biasOnlyV agg bias' := by
  funext i
  simp only [biasOnly, biasOnlyV]
  rw [h1 (i 1)]

end Gcn.Spec

end
-- ==== Proof.ChainA.lean ====
/-
  The idealized kernel program's buffer contents, boundary by boundary (part A).

  The contents at each boundary are a fold from the launch memory: a host stretch applies its operations, a launch
  replaces its output array by what its grid points write back and leaves every other buffer as it was.
  The first host stretch computes the self-looped edge lists and the edge weights from the edge list and writes no argument array.
-/
import proofs.«140293_j22917945492092_2_alg».proof.Proof.Gen.KernelIdeal.Frame
import proofs.«140293_j22917945492092_2_alg».proof.Proof.HostSpec
import proofs.«140293_j22917945492092_2_alg».proof.Proof.Spec

set_option maxRecDepth 16384

noncomputable section

namespace Gcn.Chain

open Cert.KernelIdeal Cert.KernelIdeal.Gen
open Idealize.ShloMosaic Idealize.ShloMosaic.TcCoe Idealize.SL.Sem Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

/-! ## After the first host stretch -/

theorem W1_v5 : W1 m ρ c (Proc.devRef .tc main_v5) = (Gcn.Host.srcIdx (m ((c : Thread nD τ).loc main_arg1))) := by
  show StableHlo.after hostOps0 (W0 m ρ c) (Proc.devRef .tc main_v5) = _
  after_results_simp <;> rfl

theorem W1_v6 : W1 m ρ c (Proc.devRef .tc main_v6) = (Gcn.Host.dstIdx (m ((c : Thread nD τ).loc main_arg1))) := by
  show StableHlo.after hostOps0 (W0 m ρ c) (Proc.devRef .tc main_v6) = _
  after_results_simp <;> rfl

theorem W1_v31 : W1 m ρ c (Proc.devRef .tc main_v31) = (Gcn.Host.edgeNorm (Gcn.Host.srcIdx (m ((c : Thread nD τ).loc main_arg1))) (Gcn.Host.dstIdx (m ((c : Thread nD τ).loc main_arg1)))) := by
  show StableHlo.after hostOps0 (W0 m ρ c) (Proc.devRef .tc main_v31) = _
  after_results_simp <;> rfl

theorem W1_arg0 : W1 m ρ c (Proc.devRef .tc main_arg0) = (m ((c : Thread nD τ).loc main_arg0)) := by
  show StableHlo.after hostOps0 (W0 m ρ c) (Proc.devRef .tc main_arg0) = _
  after_results_simp <;> rfl

theorem W1_arg2 : W1 m ρ c (Proc.devRef .tc main_arg2) = (m ((c : Thread nD τ).loc main_arg2)) := by
  show StableHlo.after hostOps0 (W0 m ρ c) (Proc.devRef .tc main_arg2) = _
  after_results_simp <;> rfl

theorem W1_arg3 : W1 m ρ c (Proc.devRef .tc main_arg3) = (m ((c : Thread nD τ).loc main_arg3)) := by
  show StableHlo.after hostOps0 (W0 m ρ c) (Proc.devRef .tc main_arg3) = _
  after_results_simp <;> rfl

theorem W1_arg4 : W1 m ρ c (Proc.devRef .tc main_arg4) = (m ((c : Thread nD τ).loc main_arg4)) := by
  show StableHlo.after hostOps0 (W0 m ρ c) (Proc.devRef .tc main_arg4) = _
  after_results_simp <;> rfl

theorem W1_arg5 : W1 m ρ c (Proc.devRef .tc main_arg5) = (m ((c : Thread nD τ).loc main_arg5)) := by
  show StableHlo.after hostOps0 (W0 m ρ c) (Proc.devRef .tc main_arg5) = _
  after_results_simp <;> rfl

theorem W1_arg6 : W1 m ρ c (Proc.devRef .tc main_arg6) = (m ((c : Thread nD τ).loc main_arg6)) := by
  show StableHlo.after hostOps0 (W0 m ρ c) (Proc.devRef .tc main_arg6) = _
  after_results_simp <;> rfl

theorem W1_arg7 : W1 m ρ c (Proc.devRef .tc main_arg7) = (m ((c : Thread nD τ).loc main_arg7)) := by
  show StableHlo.after hostOps0 (W0 m ρ c) (Proc.devRef .tc main_arg7) = _
  after_results_simp <;> rfl

theorem W1_arg8 : W1 m ρ c (Proc.devRef .tc main_arg8) = (m ((c : Thread nD τ).loc main_arg8)) := by
  show StableHlo.after hostOps0 (W0 m ρ c) (Proc.devRef .tc main_arg8) = _
  after_results_simp <;> rfl

theorem W1_arg9 : W1 m ρ c (Proc.devRef .tc main_arg9) = (m ((c : Thread nD τ).loc main_arg9)) := by
  show StableHlo.after hostOps0 (W0 m ρ c) (Proc.devRef .tc main_arg9) = _
  after_results_simp <;> rfl

theorem W1_arg10 : W1 m ρ c (Proc.devRef .tc main_arg10) = (m ((c : Thread nD τ).loc main_arg10)) := by
  show StableHlo.after hostOps0 (W0 m ρ c) (Proc.devRef .tc main_arg10) = _
  after_results_simp <;> rfl

theorem W1_arg11 : W1 m ρ c (Proc.devRef .tc main_arg11) = (m ((c : Thread nD τ).loc main_arg11)) := by
  show StableHlo.after hostOps0 (W0 m ρ c) (Proc.devRef .tc main_arg11) = _
  after_results_simp <;> rfl

end Gcn.Chain

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«140293_j22917945492092_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Region0.lean ====
/-
  The first projection of the network, region by region: the row-blocked matrix product of the pipeline
  is the whole product.

  The pipeline walks the 50000 rows of the left operand in five blocks of 10000 rows; at each block it multiplies
  the block by the whole weight matrix and writes the 10000 product rows back. On the extended reals the rounding of
  the operands to a narrower format is the identity, and the matrix unit accumulating into zero is the textbook sum,
  so the block written at point t is rows 10000 t … 10000 t + 9999 of the product x · w, and the five blocks tile
  the array: the output array ends holding x · w.
-/
import proofs.«140293_j22917945492092_2_alg».proof.Proof.Gen.KernelIdeal.Frame
import proofs.«140293_j22917945492092_2_alg».proof.Proof.Spec
import proofs.«140293_j22917945492092_2_alg».proof.Proof.LibDotRecord
import Idealize.ShloMosaic.Lib.Pipeline.Value

noncomputable section

namespace Gcn.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The body's payload at entry (p, q): the sum over k of x0 (p, k) * x1 (k, q). -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact DotRecord.matmul_zero_apply dot_S10000x128_S128x128_S10000x128_1_0_0_1_n_n rfl rfl rfl rfl rfl rfl
    (truncf .bf16 x0 bitsLt_bf16_f32) (truncf .bf16 x1 bitsLt_bf16_f32) none p q

/-- The block indices at point t: the left operand and the output are at row block t, the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 10000 t … 10000 t + 9999 of the array. -/
theorem lhs_block_apply (c : Dev nD) (t : Fin cfg0.N) (p : Fin 10000) (k : Fin 128) (i : S50000x128.Idx)
    (hi0 : (i 0).val = 10000 * t.val + p.val) (hi1 : (i 1).val = k.val) :
    (iblk0 V c 0 t : Vec Ideal S10000x128 .f32) (ix2 p k) = (V c main_arg0 : S50000x128.Idx → Ideal .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * p.val = (i 0).val; rw [e0, hi0]; omega
  | ⟨1, _⟩ => show win0_0.index t 1 * 128 + 1 * k.val = (i 1).val; rw [e1, hi1]; omega

/-- The weight's block at every point is the whole array. -/
theorem rhs_block_apply (c : Dev nD) (t : Fin cfg0.N) (k : Fin 128) (q : Fin 128) :
    (iblk0 V c 1 t : Vec Ideal S128x128 .f32) (ix2 k q) = (V c main_arg2 : S128x128.Idx → Ideal .f32) (ix2 k q) := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- What point t writes back is block t of the product: rows 10000 t … 10000 t + 9999 of x · w. -/
theorem flushed_eq (c : Dev nD) (t : Fin cfg0.N) :
    (dat0 V c).flushed 2 t
      = ((cfg0.win 2).blk t).view.read (Elt Ideal) (Gcn.Spec.proj (M := 50000) (K := 128) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = Gcn.Spec.proj (M := 50000) (K := 128) (N := 128) (V c main_arg0) (V c main_arg2) (((cfg0.win 2).blk t).view.emb (ix2 p q))
  have he0 : ((((cfg0.win 2).blk t).view.emb (ix2 p q)) 0).val = 10000 * t.val + p.val := by
    show win0_2.index t 0 * 10000 + 1 * p.val = _
    rw [(idx_facts t).2.2.2.2.1]; omega
  have he1 : ((((cfg0.win 2).blk t).view.emb (ix2 p q)) 1).val = q.val := by
    show win0_2.index t 1 * 128 + 1 * q.val = _
    rw [(idx_facts t).2.2.2.2.2]; omega
  refine (pay_apply (iblk0 V c 0 t) (iblk0 V c 1 t) p q).trans ?_
  refine Finset.sum_congr rfl fun k _ => ?_
  have hq : ((((cfg0.win 2).blk t).view.emb (ix2 p q)) 1 : Fin 128) = q := Fin.ext he1
  refine congrArg₂ (· * ·) (lhs_block_apply V c t p k _ he0 rfl) ?_
  refine (rhs_block_apply V c t k q).trans ?_
  show V c main_arg2 (ix2 k q) = V c main_arg2 (ix2 k ((((cfg0.win 2).blk t).view.emb (ix2 p q)) 1))
  rw [hq]

/-- Membership in the output's block at point t, axis by axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Row r of the output lies in the block of point r / 10000: the five blocks tile the array. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  refine ⟨⟨(i 0).val / 10000, by rw [hN]; omega⟩, flush0_2 _, ?_⟩
  rw [mem_blk]
  obtain ⟨-, -, -, -, e0, e1⟩ := idx_facts ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e1]; omega

/-- The output array of the region: the product of the left operand's array and the weight's, entry by entry. -/
theorem value (c : Dev nD) :
    (dat0 (F := Ideal) V c).arrAt 2 cfg0.N
      = Gcn.Spec.proj (M := 50000) (K := 128) (N := 128) (V c main_arg0) (V c main_arg2) :=
  (dat0 V c).arrAt_eq_of_cover 2 (Gcn.Spec.proj (M := 50000) (K := 128) (N := 128) (V c main_arg0) (V c main_arg2))
    (fun t _ => flushed_eq V c t) cover

end Gcn.Region0

end
-- ==== Proof.LibTileForms.lean ====
/-
  A tile body's layout forms, read at an entry; every extent is generic.

  A body that works on an [a, b] tile meets these again and again: one row of an [m, b] block cut out as [1, b] and
  repeated down the tile's rows; a [1, b] row repeated the same way; a [b] vector recast to the row [1, b] first; a
  [1, a, b] slab viewed as the matrix [a, b], and the matrix stored back as a slab; a band of columns of a wide matrix
  loaded through its rectangle; an [a, b] array given a unit middle axis. Each lemma reads one form at an entry as the
  operand at the evident index.
-/
import Idealize.ShloMosaic.PureOps.Ideal.Laws
import Idealize.ShloMosaic.Lib.ValueIdx
import Idealize.ShloMosaic.Lib.ValueLayout
import Idealize.ShloMosaic.Lib.Pipeline.Value

namespace TileForms

open Idealize.ShloMosaic Idealize.ShloMosaic.ValueIdx

variable {a b m : ℕ} {α : Type}

/-- Row `k` of an [m, b] block, cut out at the literal offset `o = k` and repeated down an [a, b] tile, reads at
    (p, c) the block at (k, c). -/
theorem blockRow_apply (B : (⟨2, ![m, b]⟩ : Shape).Idx → α) (o : ℕ) (k : Fin m) (hk : k.val = o)
    (hs : (⟨2, ![m, b]⟩ : Shape).Slices ![o, 0] ⟨2, ![1, b]⟩)
    (hb : (⟨2, ![1, b]⟩ : Shape).Broadcasts ⟨2, ![a, b]⟩) (p : Fin a) (c : Fin b) :
    broadcastTo ⟨2, ![a, b]⟩ (extractStridedSlice ⟨2, ![1, b]⟩ ![o, 0] B hs) hb (ix2 p c) = B (ix2 k c) :=
  (broadcastTo_1b_ab_apply _ hb p c).trans (slice2_axis0_apply o B hs (0 : Fin 1) c k (by simpa using hk))

/-- A [b] vector recast to the row [1, b] reads, at (0, c), the vector at c. -/
theorem rowCast_apply (x : (⟨1, ![b]⟩ : Shape).Idx → α) (h1 : (⟨1, ![b]⟩ : Shape).ShapeCasts ⟨2, ![1, b]⟩) (c : Fin b) :
    shapeCast ⟨2, ![1, b]⟩ x h1 (ix2 (0 : Fin 1) c) = x (ix1 c) :=
  shapeCast_a_1a_apply x h1 0 c

/-- A [b] vector recast to the row [1, b] and repeated down an [a, b] tile reads, at (p, c), the vector at c. -/
theorem biasRow_apply (x : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ x h1) hb (ix2 p c) = x (ix1 c) :=
  (broadcastTo_1b_ab_apply _ hb p c).trans (rowCast_apply x h1 c)

/-- A [1, a, b] slab viewed as the matrix [a, b] reads, at (p, c), the slab at (0, p, c). -/
theorem slabAsMatrix_apply (x : (⟨3, ![1, a, b]⟩ : Shape).Idx → α) (h : (⟨3, ![1, a, b]⟩ : Shape).ShapeCasts ⟨2, ![a, b]⟩)
    (p : Fin a) (c : Fin b) : shapeCast ⟨2, ![a, b]⟩ x h (ix2 p c) = x (ix3 (0 : Fin 1) p c) := by
  refine (shapeCast_dropUnit_apply ![a, b] x h (ix2 p c)).trans (congrArg x ?_)
  funext d
  match d with
  | ⟨0, _⟩ => rfl
  | ⟨1, _⟩ => rfl
  | ⟨2, _⟩ => rfl

/-- A matrix [a, b] stored as the slab [1, a, b] reads, at (0, p, c), the matrix at (p, c). -/
theorem matrixAsSlab_apply (x : (⟨2, ![a, b]⟩ : Shape).Idx → α) (h : (⟨2, ![a, b]⟩ : Shape).ShapeCasts ⟨3, ![1, a, b]⟩)
    (u : Fin 1) (p : Fin a) (c : Fin b) : shapeCast ⟨3, ![1, a, b]⟩ x h (ix3 u p c) = x (ix2 p c) := by
  refine (shapeCast_addUnit_apply ![a, b] x h (ix3 u p c)).trans (congrArg x ?_)
  funext d
  match d with
  | ⟨0, _⟩ => rfl
  | ⟨1, _⟩ => rfl

/-- A band of `n` columns of an [r, w] matrix starting at column `o`, loaded through its rectangle, reads at (u, d) the
    matrix at (u, o + d). -/
theorem ld_band {Val : EltTy → Type} {e : EltTy} {r w n : ℕ} (x : (⟨2, ![r, w]⟩ : Shape).Idx → Val e) (o : ℕ)
    (inb : ∀ ax, (![0, o] : Fin 2 → ℕ) ax + (⟨2, ![r, n]⟩ : Shape).size ax ≤ (⟨2, ![r, w]⟩ : Shape).size ax)
    (u : Fin r) (d : Fin n) (k : Fin w) (hk : k.val = o + d.val) :
    View.ld (Val := Val) x (Rect.unit (s := ⟨2, ![r, w]⟩) ![0, o] (⟨2, ![r, n]⟩ : Shape).size inb) (ix2 u d) = x (ix2 u k) := by
  show x ((Rect.unit (s := ⟨2, ![r, w]⟩) ![0, o] (⟨2, ![r, n]⟩ : Shape).size inb).emb (ix2 u d)) = _
  refine congrArg x (funext fun ax => Fin.ext ?_)
  match ax with
  | ⟨0, _⟩ => show 0 + 1 * u.val = u.val; omega
  | ⟨1, _⟩ => show o + 1 * d.val = k.val; omega

/-- An [a, b] array given a unit middle axis reads, at (s, u, e), the array at (s, e). -/
theorem midUnit_apply {a b : ℕ} {α : Type} (x : (⟨2, ![a, b]⟩ : Shape).Idx → α)
    (h : (⟨2, ![a, b]⟩ : Shape).ShapeCasts ⟨3, ![a, 1, b]⟩) (s : Fin a) (u : Fin 1) (e : Fin b) :
    shapeCast ⟨3, ![a, 1, b]⟩ x h (ix3 s u e) = x (ix2 s e) :=
  shapeCast_apply x h _ _ (by
    have hu : u.val = 0 := by omega
    rw [Shape.rowMajor_val_two, Shape.rowMajor_val_three]
    show s.val * b + e.val = (s.val * 1 + u.val) * b + e.val
    rw [hu, Nat.mul_one, Nat.add_zero])

/-- The f32 word of +0 as a scalar constant denotes zero. -/
theorem scalar_zero : Scalar.ofBits (F := Ideal) .f32 0x00000000#32 = (0 : EReal) := Ideal.ofBits_zero_f32

end TileForms
-- ==== Proof.ChainB.lean ====
/-
  The idealized kernel program's buffer contents, boundary by boundary (part B).

  The contents at each boundary are a fold from the launch memory: a host stretch applies its operations, a launch
  replaces its output array by what its grid points write back and leaves every other buffer as it was.
  The first launch leaves the projection of the features; the second host stretch aggregates it along the edges and recasts the five parameter vectors of the normalisation as rows. The edge data and the arguments are carried unchanged.
-/
import proofs.«140293_j22917945492092_2_alg».proof.Proof.Gen.KernelIdeal.Frame
import proofs.«140293_j22917945492092_2_alg».proof.Proof.ChainA
import proofs.«140293_j22917945492092_2_alg».proof.Proof.Region0
import proofs.«140293_j22917945492092_2_alg».proof.Proof.LibTileForms

set_option maxRecDepth 16384

noncomputable section

namespace Gcn.Chain

open Cert.KernelIdeal Cert.KernelIdeal.Gen
open Idealize.ShloMosaic Idealize.ShloMosaic.TcCoe Idealize.SL.Sem Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

/-! ## After the first launch (the projection of the features) -/

theorem W2_v5 : W2 m ρ c (Proc.devRef .tc main_v5) = (Gcn.Host.srcIdx (m ((c : Thread nD τ).loc main_arg1))) :=
  (W2_of_ne m ρ c main_v5 (by decide)).trans (W1_v5 m ρ c)

theorem W2_v6 : W2 m ρ c (Proc.devRef .tc main_v6) = (Gcn.Host.dstIdx (m ((c : Thread nD τ).loc main_arg1))) :=
  (W2_of_ne m ρ c main_v6 (by decide)).trans (W1_v6 m ρ c)

theorem W2_v31 : W2 m ρ c (Proc.devRef .tc main_v31) = (Gcn.Host.edgeNorm (Gcn.Host.srcIdx (m ((c : Thread nD τ).loc main_arg1))) (Gcn.Host.dstIdx (m ((c : Thread nD τ).loc main_arg1)))) :=
  (W2_of_ne m ρ c main_v31 (by decide)).trans (W1_v31 m ρ c)

theorem W2_arg3 : W2 m ρ c (Proc.devRef .tc main_arg3) = (m ((c : Thread nD τ).loc main_arg3)) :=
  (W2_of_ne m ρ c main_arg3 (by decide)).trans (W1_arg3 m ρ c)

theorem W2_arg4 : W2 m ρ c (Proc.devRef .tc main_arg4) = (m ((c : Thread nD τ).loc main_arg4)) :=
  (W2_of_ne m ρ c main_arg4 (by decide)).trans (W1_arg4 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

theorem W2_arg8 : W2 m ρ c (Proc.devRef .tc main_arg8) = (m ((c : Thread nD τ).loc main_arg8)) :=
  (W2_of_ne m ρ c main_arg8 (by decide)).trans (W1_arg8 m ρ c)

theorem W2_arg9 : W2 m ρ c (Proc.devRef .tc main_arg9) = (m ((c : Thread nD τ).loc main_arg9)) :=
  (W2_of_ne m ρ c main_arg9 (by decide)).trans (W1_arg9 m ρ c)

theorem W2_arg10 : W2 m ρ c (Proc.devRef .tc main_arg10) = (m ((c : Thread nD τ).loc main_arg10)) :=
  (W2_of_ne m ρ c main_arg10 (by decide)).trans (W1_arg10 m ρ c)

theorem W2_arg11 : W2 m ρ c (Proc.devRef .tc main_arg11) = (m ((c : Thread nD τ).loc main_arg11)) :=
  (W2_of_ne m ρ c main_arg11 (by decide)).trans (W1_arg11 m ρ c)

theorem W2_v32 : W2 m ρ c (Proc.devRef .tc main_v32) = (Gcn.Spec.proj (m ((c : Thread nD τ).loc main_arg0)) (m ((c : Thread nD τ).loc main_arg2))) := by
  refine (W2_arr m ρ c 2).trans ((Gcn.Region0.value (V1 m ρ) c).trans ?_)
  show Gcn.Spec.proj (W1 m ρ c (Proc.devRef .tc main_arg0)) (W1 m ρ c (Proc.devRef .tc main_arg2)) = _
  rw [W1_arg0, W1_arg2]

/-! ## After the second host stretch (the first aggregation; the five parameter rows) -/

theorem W3_v5 : W3 m ρ c (Proc.devRef .tc main_v5) = (Gcn.Host.srcIdx (m ((c : Thread nD τ).loc main_arg1))) := by
  show StableHlo.after hostOps1 (W2 m ρ c) (Proc.devRef .tc main_v5) = _
  after_results_simp
  exact W2_v5 m ρ c

theorem W3_v6 : W3 m ρ c (Proc.devRef .tc main_v6) = (Gcn.Host.dstIdx (m ((c : Thread nD τ).loc main_arg1))) := by
  show StableHlo.after hostOps1 (W2 m ρ c) (Proc.devRef .tc main_v6) = _
  after_results_simp
  exact W2_v6 m ρ c

theorem W3_v31 : W3 m ρ c (Proc.devRef .tc main_v31) = (Gcn.Host.edgeNorm (Gcn.Host.srcIdx (m ((c : Thread nD τ).loc main_arg1))) (Gcn.Host.dstIdx (m ((c : Thread nD τ).loc main_arg1)))) := by
  show StableHlo.after hostOps1 (W2 m ρ c) (Proc.devRef .tc main_v31) = _
  after_results_simp
  exact W2_v31 m ρ c

theorem W3_arg4 : W3 m ρ c (Proc.devRef .tc main_arg4) = (m ((c : Thread nD τ).loc main_arg4)) := by
  show StableHlo.after hostOps1 (W2 m ρ c) (Proc.devRef .tc main_arg4) = _
  after_results_simp
  exact W2_arg4 m ρ c

theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c

theorem W3_arg6 : W3 m ρ c (Proc.devRef .tc main_arg6) = (m ((c : Thread nD τ).loc main_arg6)) := by
  show StableHlo.after hostOps1 (W2 m ρ c) (Proc.devRef .tc main_arg6) = _
  after_results_simp
  exact W2_arg6 m ρ c

theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c

theorem W3_v45 : W3 m ρ c (Proc.devRef .tc main_v45) = (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) := by
  show StableHlo.after hostOps1 (W2 m ρ c) (Proc.devRef .tc main_v45) = _
  after_results_simp
  rw [W2_v5 m ρ c, W2_v6 m ρ c, W2_v31 m ρ c, W2_v32 m ρ c]
  rfl

theorem W3_v46 (q : Fin 128) : (W3 m ρ c (Proc.devRef .tc main_v46) : Gcn.Spec.Mat 1 128) (ix2 0 q) = (m ((c : Thread nD τ).loc main_arg3)) (ix1 q) := by
  show (StableHlo.after hostOps1 (W2 m ρ c) (Proc.devRef .tc main_v46) : Gcn.Spec.Mat 1 128) (ix2 0 q) = _
  after_results_simp
  rw [W2_arg3 m ρ c]
  exact TileForms.rowCast_apply _ _ q

theorem W3_v47 (q : Fin 128) : (W3 m ρ c (Proc.devRef .tc main_v47) : Gcn.Spec.Mat 1 128) (ix2 0 q) = (m ((c : Thread nD τ).loc main_arg8)) (ix1 q) := by
  show (StableHlo.after hostOps1 (W2 m ρ c) (Proc.devRef .tc main_v47) : Gcn.Spec.Mat 1 128) (ix2 0 q) = _
  after_results_simp
  rw [W2_arg8 m ρ c]
  exact TileForms.rowCast_apply _ _ q

theorem W3_v48 (q : Fin 128) : (W3 m ρ c (Proc.devRef .tc main_v48) : Gcn.Spec.Mat 1 128) (ix2 0 q) = (m ((c : Thread nD τ).loc main_arg9)) (ix1 q) := by
  show (StableHlo.after hostOps1 (W2 m ρ c) (Proc.devRef .tc main_v48) : Gcn.Spec.Mat 1 128) (ix2 0 q) = _
  after_results_simp
  rw [W2_arg9 m ρ c]
  exact TileForms.rowCast_apply _ _ q

theorem W3_v49 (q : Fin 128) : (W3 m ρ c (Proc.devRef .tc main_v49) : Gcn.Spec.Mat 1 128) (ix2 0 q) = (m ((c : Thread nD τ).loc main_arg10)) (ix1 q) := by
  show (StableHlo.after hostOps1 (W2 m ρ c) (Proc.devRef .tc main_v49) : Gcn.Spec.Mat 1 128) (ix2 0 q) = _
  after_results_simp
  rw [W2_arg10 m ρ c]
  exact TileForms.rowCast_apply _ _ q

theorem W3_v50 (q : Fin 128) : (W3 m ρ c (Proc.devRef .tc main_v50) : Gcn.Spec.Mat 1 128) (ix2 0 q) = (m ((c : Thread nD τ).loc main_arg11)) (ix1 q) := by
  show (StableHlo.after hostOps1 (W2 m ρ c) (Proc.devRef .tc main_v50) : Gcn.Spec.Mat 1 128) (ix2 0 q) = _
  after_results_simp
  rw [W2_arg11 m ρ c]
  exact TileForms.rowCast_apply _ _ q

end Gcn.Chain

end
-- ==== Proof.Region1.lean ====
/-
  The first layer's entry-wise stage: bias, normalisation with fixed statistics, rectifier.

  The region works on blocks of 10000 rows of a 50000 x 128 array; at each of its five points it stores, into the
  output's block, the entry-wise function of the aggregated block and the five parameter rows

    max ((((agg (p,q) + bias q) - mean q) * rsqrt (var q + eps)) * gamma q + beta q) 0 .

  Every row is read whole at each point, and block t of the aggregated array is rows 10000 t ... 10000 t + 9999, the
  same rows the output's block t fills. So what each point writes back is its block of one function of the six arrays,
  the five blocks cover the array (row r lies in block r / 10000), and the array ends at that function.
-/
import proofs.«140293_j22917945492092_2_alg».proof.Proof.Gen.KernelIdeal.Frame
import proofs.«140293_j22917945492092_2_alg».proof.Proof.Spec
import proofs.«140293_j22917945492092_2_alg».proof.Proof.LibDotRecord
import Idealize.ShloMosaic.Lib.Pipeline.Value
import Idealize.ShloMosaic.Lib.ValueIdx

noncomputable section

namespace Gcn.Region1

open Idealize.ShloMosaic Idealize.ShloMosaic.TcCoe Idealize.ShloMosaic.ValueIdx
open Idealize.ShloMosaic.Pipeline (Dat)
open Cert.KernelIdeal Cert.KernelIdeal.Gen

/-- The zero offsets of a whole-block access. -/
theorem offsets_zero : (![0, 0] : Fin 2 → Nat) = fun _ => 0 := funext fun a => by fin_cases a <;> rfl

/-- The body's stored value at entry (p, q): the rows are read at (0, q), the constants are the two printed words. -/
theorem pay_apply (v0 : Vec Ideal S10000x128 .f32) (v2 v6 v10 v17 v21 : Vec Ideal S1x128 .f32)
    (p : Fin 10000) (q : Fin 128) :
    k1_pay1 (F := Ideal) v0 v2 v6 v10 v17 v21 (ix2 p q)
      = max ((((v0 (ix2 p q) + v2 (ix2 0 q)) - v6 (ix2 0 q))
          * Ideal.rsqrt (v10 (ix2 0 q) + Ideal.ofBits .f32 0x3727C5AC#32)) * v17 (ix2 0 q) + v21 (ix2 0 q))
        (Ideal.ofBits .f32 0x00000000#32) := by
  unfold k1_pay1
  simp only [shapeCast_self]
  show max ((((v0 (ix2 p q) + broadcastTo S10000x128 v2 broadcasts_S1x128_S10000x128 (ix2 p q))
        - broadcastTo S10000x128 v6 broadcasts_S1x128_S10000x128 (ix2 p q))
        * broadcastTo S10000x128 (rsqrt (addf v10 (broadcast S1x128 (Scalar.ofBits (F := Ideal) .f32 0x3727C5AC#32)))) broadcasts_S1x128_S10000x128 (ix2 p q))
        * broadcastTo S10000x128 v17 broadcasts_S1x128_S10000x128 (ix2 p q)
        + broadcastTo S10000x128 v21 broadcasts_S1x128_S10000x128 (ix2 p q))
      (Scalar.ofBits (F := Ideal) .f32 0x00000000#32) = _
  rw [DotRecord.broadcastTo_1b_ab_apply, DotRecord.broadcastTo_1b_ab_apply, DotRecord.broadcastTo_1b_ab_apply,
    DotRecord.broadcastTo_1b_ab_apply, DotRecord.broadcastTo_1b_ab_apply]
  rfl

/-- The target function at an index whose column is q. -/
theorem normAct_at (A : Gcn.Spec.Mat 50000 128) (b g be mu va : Gcn.Spec.Mat 1 128) (i : S50000x128.Idx) (q : Fin 128)
    (hq : (i 1).val = q.val) :
    Gcn.Spec.normAct 0x3727C5AC#32 A b g be mu va i
      = max ((((A i + b (ix2 0 q)) - mu (ix2 0 q))
          * Ideal.rsqrt (va (ix2 0 q) + Ideal.ofBits .f32 0x3727C5AC#32)) * g (ix2 0 q) + be (ix2 0 q))
        (Ideal.ofBits .f32 0x00000000#32) := by
  have e : (i 1 : Fin 128) = q := Fin.ext hq
  unfold Gcn.Spec.normAct
  rw [e]

section Region

variable (V : (c : Dev nD) → (b : Ref sig .tc) → Buf (Elt Ideal) ((c : Thread nD τ).loc b))

/-- The function the output array ends at. -/
abbrev G (c : Dev nD) : Gcn.Spec.Mat 50000 128 :=
  Gcn.Spec.normAct 0x3727C5AC#32 (V c main_v45) (V c main_v46) (V c main_v47) (V c main_v48) (V c main_v49) (V c main_v50)

/-- The printed index maps over the grid: the two row-blocked windows sit at block (t, 0), the five rows at (0, 0). -/
theorem idx_facts : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Block t of the aggregated array, at (p, q), is the array where the output's block t has (p, q). -/
theorem read_agg (c : Dev nD) (t : Fin cfg1.N) (p : Fin 10000) (q : Fin 128) :
    iblk1 V c 0 t (ix2 p q) = V c main_v45 (((cfg1.win 6).blk t).view.emb (ix2 p q)) := by
  obtain ⟨e0, e1, e2, e3, -⟩ := idx_facts t
  unfold iblk1
  show V c main_v45 (((cfg1.win 0).blk t).view.emb (ix2 p q)) = V c main_v45 (((cfg1.win 6).blk t).view.emb (ix2 p q))
  refine congrArg (V c main_v45) ?_
  funext a; apply Fin.ext
  match a with
  | ⟨0, _⟩ =>
    show win1_0.index t (0 : Fin 2) * 10000 + 1 * p.val = win1_6.index t (0 : Fin 2) * 10000 + 1 * p.val
    rw [e0, e2]
  | ⟨1, _⟩ =>
    show win1_0.index t (1 : Fin 2) * 128 + 1 * q.val = win1_6.index t (1 : Fin 2) * 128 + 1 * q.val
    rw [e1, e3]

/-- The bias row's block at any point is the whole row. -/
theorem read_bias (c : Dev nD) (t : Fin cfg1.N) (q : Fin 128) :
    iblk1 V c 1 t (ix2 0 q) = V c main_v46 (ix2 0 q) := by
  obtain ⟨-, -, -, -, e0, e1, -, -, -, -, -, -, -, -⟩ := idx_facts t
  unfold iblk1
  show V c main_v46 (((cfg1.win 1).blk t).view.emb (ix2 0 q)) = V c main_v46 (ix2 0 q)
  refine congrArg (V c main_v46) ?_
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The gain row's block at any point is the whole row. -/
theorem read_gamma (c : Dev nD) (t : Fin cfg1.N) (q : Fin 128) :
    iblk1 V c 2 t (ix2 0 q) = V c main_v47 (ix2 0 q) := by
  obtain ⟨-, -, -, -, -, -, e0, e1, -, -, -, -, -, -⟩ := idx_facts t
  unfold iblk1
  show V c main_v47 (((cfg1.win 2).blk t).view.emb (ix2 0 q)) = V c main_v47 (ix2 0 q)
  refine congrArg (V c main_v47) ?_
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The shift row's block at any point is the whole row. -/
theorem read_beta (c : Dev nD) (t : Fin cfg1.N) (q : Fin 128) :
    iblk1 V c 3 t (ix2 0 q) = V c main_v48 (ix2 0 q) := by
  obtain ⟨-, -, -, -, -, -, -, -, e0, e1, -, -, -, -⟩ := idx_facts t
  unfold iblk1
  show V c main_v48 (((cfg1.win 3).blk t).view.emb (ix2 0 q)) = V c main_v48 (ix2 0 q)
  refine congrArg (V c main_v48) ?_
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The mean row's block at any point is the whole row. -/
theorem read_mean (c : Dev nD) (t : Fin cfg1.N) (q : Fin 128) :
    iblk1 V c 4 t (ix2 0 q) = V c main_v49 (ix2 0 q) := by
  obtain ⟨-, -, -, -, -, -, -, -, -, -, e0, e1, -, -⟩ := idx_facts t
  unfold iblk1
  show V c main_v49 (((cfg1.win 4).blk t).view.emb (ix2 0 q)) = V c main_v49 (ix2 0 q)
  refine congrArg (V c main_v49) ?_
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The variance row's block at any point is the whole row. -/
theorem read_var (c : Dev nD) (t : Fin cfg1.N) (q : Fin 128) :
    iblk1 V c 5 t (ix2 0 q) = V c main_v50 (ix2 0 q) := by
  obtain ⟨-, -, -, -, -, -, -, -, -, -, -, -, e0, e1⟩ := idx_facts t
  unfold iblk1
  show V c main_v50 (((cfg1.win 5).blk t).view.emb (ix2 0 q)) = V c main_v50 (ix2 0 q)
  refine congrArg (V c main_v50) ?_
  funext a; apply Fin.ext
  match a with
  | ⟨0, _⟩ => show win1_5.index t (0 : Fin 2) * 1 + 1 * 0 = 0; rw [e0]
  | ⟨1, _⟩ => show win1_5.index t (1 : Fin 2) * 128 + 1 * q.val = q.val; rw [e1]; omega

/-- What point t writes back is block t of the one function of the six arrays. -/
theorem flushed_eq (c : Dev nD) (t : Fin cfg1.N) :
    (dat1 V c).flushed 6 t = ((cfg1.win 6).blk t).view.read (Elt Ideal) (G V c) := by
  obtain ⟨-, -, e2, e3, -⟩ := idx_facts t
  show (cfg1.win 6).cut (grid1.coords t) ((dat1 V c).after 6 t) = _
  rw [after1_6]
  unfold out1_6
  rw [View.canon_unit_zero offsets_zero]
  simp only [View.ld_unit_zero (S := S10000x128) offsets_zero, View.ld_unit_zero (S := S1x128) offsets_zero]
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 4 t) (iblk1 V c 5 t) (iblk1 V c 2 t) (iblk1 V c 3 t) (ix2 p q)
    = G V c (((cfg1.win 6).blk t).view.emb (ix2 p q))
  refine (pay_apply (iblk1 V c 0 t) (iblk1 V c 1 t) (iblk1 V c 4 t) (iblk1 V c 5 t) (iblk1 V c 2 t) (iblk1 V c 3 t) p q).trans ?_
  have hq : ((((cfg1.win 6).blk t).view.emb (ix2 p q)) 1).val = q.val := by
    show win1_6.index t (1 : Fin 2) * 128 + 1 * q.val = q.val
    rw [e3]; omega
  refine Eq.trans ?_ (normAct_at (V c main_v45) (V c main_v46) (V c main_v47) (V c main_v48) (V c main_v49)
    (V c main_v50) (((cfg1.win 6).blk t).view.emb (ix2 p q)) q hq).symm
  rw [read_agg V c t p q, read_bias V c t q, read_gamma V c t q, read_beta V c t q, read_mean V c t q, read_var V c t q]

/-- An index of the array is in point t's block iff each coordinate is in the block's range on its axis. -/
theorem mem_blk (t : Fin cfg1.N) (i : S50000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v51).slice (win1_6.rect t)).set ↔ _
  rw [View.set_slice_whole, Rect.mem_set_unit]
  exact Iff.rfl

/-- Row r of the array lies in the block of point r / 10000, which is written back. -/
theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by omega⟩, rfl⟩
  obtain ⟨-, -, e2, e3, -⟩ := idx_facts t
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    rw [e2, ht]; omega
  | ⟨1, _⟩ =>
    show win1_6.index t (1 : Fin 2) * 128 ≤ (i 1).val ∧ (i 1).val < win1_6.index t (1 : Fin 2) * 128 + 128
    rw [e3]; omega

/-- The output array after the region: the entry-wise stage of the six arrays the region found. -/
theorem value (c : Dev nD) :
    (dat1 V c).arrAt 6 cfg1.N
      = Gcn.Spec.normAct 0x3727C5AC#32 (V c main_v45) (V c main_v46) (V c main_v47) (V c main_v48) (V c main_v49)
          (V c main_v50) :=
  (dat1 V c).arrAt_eq_of_cover 6 (G V c) (fun t _ => flushed_eq V c t) covered

end Region

end Gcn.Region1

end
-- ==== Proof.Region2.lean ====
/-
  The projection of layer two of the network: the row-blocked matrix product of the pipeline is the whole product.

  The pipeline walks the 50000 rows of the left operand in five blocks of 10000 rows; at each block it multiplies
  the block by the whole 128 × 64 weight matrix and writes the 10000 product rows back. On the extended reals the
  rounding of the operands to a narrower format is the identity, a cast of a block to its own shape is the block, and
  the matrix unit accumulating into zero is the textbook sum, so the block written at point t is rows
  10000 t … 10000 t + 9999 of the product x · w, and the five blocks tile the array: the output array ends holding x · w.
-/
import proofs.«140293_j22917945492092_2_alg».proof.Proof.Gen.KernelIdeal.Frame
import proofs.«140293_j22917945492092_2_alg».proof.Proof.Spec
import proofs.«140293_j22917945492092_2_alg».proof.Proof.LibDotRecord
import Idealize.ShloMosaic.Lib.Pipeline.Value

noncomputable section

namespace Gcn.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The body's payload at entry (p, q): the sum over k of x0 (p, k) * x1 (k, q). -/
theorem pay_apply (x0 : Vec Ideal S10000x128 .f32) (x1 : Vec Ideal S128x64 .f32) (p : Fin 10000) (q : Fin 64) :
    k2_pay1 x0 x1 (ix2 p q) = ∑ k : Fin 128, x0 (ix2 p k) * x1 (ix2 k q) := by
  unfold k2_pay1
  refine (DotRecord.matmul_zero_apply dot_S10000x128_S128x64_S10000x64_1_0_0_1_n_n rfl rfl rfl rfl rfl rfl
    (truncf .bf16 (shapeCast S10000x128 x0 shapeCasts_S10000x128_S10000x128) bitsLt_bf16_f32) (truncf .bf16 x1 bitsLt_bf16_f32) none p q).trans ?_
  refine Finset.sum_congr rfl fun k _ => ?_
  show (shapeCast S10000x128 x0 shapeCasts_S10000x128_S10000x128) (ix2 p k) * x1 (ix2 k q) = x0 (ix2 p k) * x1 (ix2 k q)
  rw [shapeCast_self]

/-- The block indices at point t: the left operand and the output are at row block t, the weight at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 10000 t … 10000 t + 9999 of the array. -/
theorem lhs_block_apply (c : Dev nD) (t : Fin cfg2.N) (p : Fin 10000) (k : Fin 128) (i : S50000x128.Idx)
    (hi0 : (i 0).val = 10000 * t.val + p.val) (hi1 : (i 1).val = k.val) :
    (iblk2 V c 0 t : Vec Ideal S10000x128 .f32) (ix2 p k) = (V c main_v51 : S50000x128.Idx → Ideal .f32) i := by
  obtain ⟨e0, e1, -⟩ := idx_facts t
  unfold iblk2
  rw [View.read_apply]
  show V c main_v51 _ = V c main_v51 _
  congr 1
  funext a
  apply Fin.ext
  match a with
  | ⟨0, _⟩ => show win2_0.index t 0 * 10000 + 1 * p.val = (i 0).val; rw [e0, hi0]; omega
  | ⟨1, _⟩ => show win2_0.index t 1 * 128 + 1 * k.val = (i 1).val; rw [e1, hi1]; omega

/-- The weight's block at every point is the whole array. -/
theorem rhs_block_apply (c : Dev nD) (t : Fin cfg2.N) (k : Fin 128) (q : Fin 64) :
    (iblk2 V c 1 t : Vec Ideal S128x64 .f32) (ix2 k q) = (V c main_arg4 : S128x64.Idx → Ideal .f32) (ix2 k q) := by
  obtain ⟨-, -, e0, e1, -⟩ := idx_facts t
  unfold iblk2
  rw [View.read_apply]
  show V c main_arg4 _ = V c main_arg4 _
  congr 1
  funext a
  apply Fin.ext
  match a with
  | ⟨0, _⟩ => show win2_1.index t 0 * 128 + 1 * k.val = k.val; rw [e0]; omega
  | ⟨1, _⟩ => show win2_1.index t 1 * 64 + 1 * q.val = q.val; rw [e1]; omega

/-- What point t writes back is block t of the product: rows 10000 t … 10000 t + 9999 of x · w. -/
theorem flushed_eq (c : Dev nD) (t : Fin cfg2.N) :
    (dat2 V c).flushed 2 t
      = ((cfg2.win 2).blk t).view.read (Elt Ideal) (Gcn.Spec.proj (M := 50000) (K := 128) (N := 64) (V c main_v51) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = Gcn.Spec.proj (M := 50000) (K := 128) (N := 64) (V c main_v51) (V c main_arg4) (((cfg2.win 2).blk t).view.emb (ix2 p q))
  have he0 : ((((cfg2.win 2).blk t).view.emb (ix2 p q)) 0).val = 10000 * t.val + p.val := by
    show win2_2.index t 0 * 10000 + 1 * p.val = _
    rw [(idx_facts t).2.2.2.2.1]; omega
  have he1 : ((((cfg2.win 2).blk t).view.emb (ix2 p q)) 1).val = q.val := by
    show win2_2.index t 1 * 64 + 1 * q.val = _
    rw [(idx_facts t).2.2.2.2.2]; omega
  refine (pay_apply (iblk2 V c 0 t) (iblk2 V c 1 t) p q).trans ?_
  refine Finset.sum_congr rfl fun k _ => ?_
  have hq : ((((cfg2.win 2).blk t).view.emb (ix2 p q)) 1 : Fin 64) = q := Fin.ext he1
  refine congrArg₂ (· * ·) (lhs_block_apply V c t p k _ he0 rfl) ?_
  refine (rhs_block_apply V c t k q).trans ?_
  show V c main_arg4 (ix2 k q) = V c main_arg4 (ix2 k ((((cfg2.win 2).blk t).view.emb (ix2 p q)) 1))
  rw [hq]

/-- Membership in the output's block at point t, axis by axis. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v52).slice (win2_2.rect t)).set ↔ _
  rw [View.set_slice_whole, Rect.mem_set_unit]
  exact Iff.rfl

/-- Row r of the output lies in the block of point r / 10000: the five blocks tile the array. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  refine ⟨⟨(i 0).val / 10000, by rw [hN]; omega⟩, flush2_2 _, ?_⟩
  rw [mem_blk]
  obtain ⟨-, -, -, -, e0, e1⟩ := idx_facts ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e0]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e1]; omega

/-- The output array of the region: the product of the left operand's array and the weight's, entry by entry. -/
theorem value (c : Dev nD) :
    (dat2 (F := Ideal) V c).arrAt 2 cfg2.N
      = Gcn.Spec.proj (M := 50000) (K := 128) (N := 64) (V c main_v51) (V c main_arg4) :=
  (dat2 V c).arrAt_eq_of_cover 2 (Gcn.Spec.proj (M := 50000) (K := 128) (N := 64) (V c main_v51) (V c main_arg4))
    (fun t _ => flushed_eq V c t) cover

end Gcn.Region2

end
-- ==== Proof.ChainC.lean ====
/-
  The idealized kernel program's buffer contents, boundary by boundary (part C).

  The contents at each boundary are a fold from the launch memory: a host stretch applies its operations, a launch
  replaces its output array by what its grid points write back and leaves every other buffer as it was.
  The second launch applies bias, normalisation and rectifier, the third the second projection; the third host stretch aggregates it and recasts the second bias as a row. The edge data and the arguments are carried unchanged.
-/
import proofs.«140293_j22917945492092_2_alg».proof.Proof.Gen.KernelIdeal.Frame
import proofs.«140293_j22917945492092_2_alg».proof.Proof.ChainB
import proofs.«140293_j22917945492092_2_alg».proof.Proof.Region1
import proofs.«140293_j22917945492092_2_alg».proof.Proof.Region2

set_option maxRecDepth 16384

noncomputable section

namespace Gcn.Chain

open Cert.KernelIdeal Cert.KernelIdeal.Gen
open Idealize.ShloMosaic Idealize.ShloMosaic.TcCoe Idealize.SL.Sem Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

/-! ## After the second launch (bias, normalisation, rectifier) -/

theorem W4_v5 : W4 m ρ c (Proc.devRef .tc main_v5) = (Gcn.Host.srcIdx (m ((c : Thread nD τ).loc main_arg1))) :=
  (W4_of_ne m ρ c main_v5 (by decide)).trans (W3_v5 m ρ c)

theorem W4_v6 : W4 m ρ c (Proc.devRef .tc main_v6) = (Gcn.Host.dstIdx (m ((c : Thread nD τ).loc main_arg1))) :=
  (W4_of_ne m ρ c main_v6 (by decide)).trans (W3_v6 m ρ c)

theorem W4_v31 : W4 m ρ c (Proc.devRef .tc main_v31) = (Gcn.Host.edgeNorm (Gcn.Host.srcIdx (m ((c : Thread nD τ).loc main_arg1))) (Gcn.Host.dstIdx (m ((c : Thread nD τ).loc main_arg1)))) :=
  (W4_of_ne m ρ c main_v31 (by decide)).trans (W3_v31 m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

theorem W4_v51 : W4 m ρ c (Proc.devRef .tc main_v51) = (Gcn.Spec.normActV 0x3727C5AC#32 (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) (m ((c : Thread nD τ).loc main_arg3)) (m ((c : Thread nD τ).loc main_arg8)) (m ((c : Thread nD τ).loc main_arg9)) (m ((c : Thread nD τ).loc main_arg10)) (m ((c : Thread nD τ).loc main_arg11))) := by
  refine (W4_arr m ρ c 6).trans ((Gcn.Region1.value (V3 m ρ) c).trans ?_)
  show Gcn.Spec.normAct 0x3727C5AC#32 (W3 m ρ c (Proc.devRef .tc main_v45)) (W3 m ρ c (Proc.devRef .tc main_v46)) (W3 m ρ c (Proc.devRef .tc main_v47)) (W3 m ρ c (Proc.devRef .tc main_v48)) (W3 m ρ c (Proc.devRef .tc main_v49)) (W3 m ρ c (Proc.devRef .tc main_v50)) = _
  rw [W3_v45 m ρ c]
  exact Gcn.Spec.normAct_eq_V _ _ _ _ _ _ _ _ _ _ _ _ (W3_v46 m ρ c) (W3_v47 m ρ c) (W3_v48 m ρ c) (W3_v49 m ρ c) (W3_v50 m ρ c)

/-! ## After the third launch (the second projection) -/

theorem W5_v5 : W5 m ρ c (Proc.devRef .tc main_v5) = (Gcn.Host.srcIdx (m ((c : Thread nD τ).loc main_arg1))) :=
  (W5_of_ne m ρ c main_v5 (by decide)).trans (W4_v5 m ρ c)

theorem W5_v6 : W5 m ρ c (Proc.devRef .tc main_v6) = (Gcn.Host.dstIdx (m ((c : Thread nD τ).loc main_arg1))) :=
  (W5_of_ne m ρ c main_v6 (by decide)).trans (W4_v6 m ρ c)

theorem W5_v31 : W5 m ρ c (Proc.devRef .tc main_v31) = (Gcn.Host.edgeNorm (Gcn.Host.srcIdx (m ((c : Thread nD τ).loc main_arg1))) (Gcn.Host.dstIdx (m ((c : Thread nD τ).loc main_arg1)))) :=
  (W5_of_ne m ρ c main_v31 (by decide)).trans (W4_v31 m ρ c)

theorem W5_arg5 : W5 m ρ c (Proc.devRef .tc main_arg5) = (m ((c : Thread nD τ).loc main_arg5)) :=
  (W5_of_ne m ρ c main_arg5 (by decide)).trans (W4_arg5 m ρ c)

theorem W5_arg6 : W5 m ρ c (Proc.devRef .tc main_arg6) = (m ((c : Thread nD τ).loc main_arg6)) :=
  (W5_of_ne m ρ c main_arg6 (by decide)).trans (W4_arg6 m ρ c)

theorem W5_arg7 : W5 m ρ c (Proc.devRef .tc main_arg7) = (m ((c : Thread nD τ).loc main_arg7)) :=
  (W5_of_ne m ρ c main_arg7 (by decide)).trans (W4_arg7 m ρ c)

theorem W5_v52 : W5 m ρ c (Proc.devRef .tc main_v52) = (Gcn.Spec.proj (Gcn.Spec.normActV 0x3727C5AC#32 (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) (m ((c : Thread nD τ).loc main_arg3)) (m ((c : Thread nD τ).loc main_arg8)) (m ((c : Thread nD τ).loc main_arg9)) (m ((c : Thread nD τ).loc main_arg10)) (m ((c : Thread nD τ).loc main_arg11))) (m ((c : Thread nD τ).loc main_arg4))) := by
  refine (W5_arr m ρ c 2).trans ((Gcn.Region2.value (V4 m ρ) c).trans ?_)
  show Gcn.Spec.proj (W4 m ρ c (Proc.devRef .tc main_v51)) (W4 m ρ c (Proc.devRef .tc main_arg4)) = _
  rw [W4_v51 m ρ c, W4_arg4]

/-! ## After the third host stretch (the second aggregation) -/

theorem W6_v5 : W6 m ρ c (Proc.devRef .tc main_v5) = (Gcn.Host.srcIdx (m ((c : Thread nD τ).loc main_arg1))) := by
  show StableHlo.after hostOps3 (W5 m ρ c) (Proc.devRef .tc main_v5) = _
  after_results_simp
  exact W5_v5 m ρ c

theorem W6_v6 : W6 m ρ c (Proc.devRef .tc main_v6) = (Gcn.Host.dstIdx (m ((c : Thread nD τ).loc main_arg1))) := by
  show StableHlo.after hostOps3 (W5 m ρ c) (Proc.devRef .tc main_v6) = _
  after_results_simp
  exact W5_v6 m ρ c

theorem W6_v31 : W6 m ρ c (Proc.devRef .tc main_v31) = (Gcn.Host.edgeNorm (Gcn.Host.srcIdx (m ((c : Thread nD τ).loc main_arg1))) (Gcn.Host.dstIdx (m ((c : Thread nD τ).loc main_arg1)))) := by
  show StableHlo.after hostOps3 (W5 m ρ c) (Proc.devRef .tc main_v31) = _
  after_results_simp
  exact W5_v31 m ρ c

theorem W6_arg6 : W6 m ρ c (Proc.devRef .tc main_arg6) = (m ((c : Thread nD τ).loc main_arg6)) := by
  show StableHlo.after hostOps3 (W5 m ρ c) (Proc.devRef .tc main_arg6) = _
  after_results_simp
  exact W5_arg6 m ρ c

theorem W6_arg7 : W6 m ρ c (Proc.devRef .tc main_arg7) = (m ((c : Thread nD τ).loc main_arg7)) := by
  show StableHlo.after hostOps3 (W5 m ρ c) (Proc.devRef .tc main_arg7) = _
  after_results_simp
  exact W5_arg7 m ρ c

theorem W6_v65 : W6 m ρ c (Proc.devRef .tc main_v65) = (Gcn.Host.aggOf64 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (Gcn.Spec.normActV 0x3727C5AC#32 (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) (m ((c : Thread nD τ).loc main_arg3)) (m ((c : Thread nD τ).loc main_arg8)) (m ((c : Thread nD τ).loc main_arg9)) (m ((c : Thread nD τ).loc main_arg10)) (m ((c : Thread nD τ).loc main_arg11))) (m ((c : Thread nD τ).loc main_arg4)))) := by
  show StableHlo.after hostOps3 (W5 m ρ c) (Proc.devRef .tc main_v65) = _
  after_results_simp
  rw [W5_v5 m ρ c, W5_v6 m ρ c, W5_v31 m ρ c, W5_v52 m ρ c]
  rfl

theorem W6_v66 (q : Fin 64) : (W6 m ρ c (Proc.devRef .tc main_v66) : Gcn.Spec.Mat 1 64) (ix2 0 q) = (m ((c : Thread nD τ).loc main_arg5)) (ix1 q) := by
  show (StableHlo.after hostOps3 (W5 m ρ c) (Proc.devRef .tc main_v66) : Gcn.Spec.Mat 1 64) (ix2 0 q) = _
  after_results_simp
  rw [W5_arg5 m ρ c]
  exact TileForms.rowCast_apply _ _ q

end Gcn.Chain

end
-- ==== Proof.Region3.lean ====
/-
  The fourth dense stage of the network, bias and rectifier, through its row-blocked grid.

  The stage's grid has five points; point t reads rows 10000 t … 10000 t + 9999 of the aggregated [50000, 64] array and
  the whole [1, 64] bias row, and writes the same rows of the output array. At entry (p, q) of its block the body
  leaves max (x (p, q) + bias (0, q)) 0. So what point t writes back is block t of ONE function of the two arrays,
  entry (r, q) ↦ max (agg (r, q) + bias (0, q)) 0, and since row r lies in the block of point r / 10000 the output
  array ends holding that function.
-/
import proofs.«140293_j22917945492092_2_alg».proof.Proof.Gen.KernelIdeal.Frame
import proofs.«140293_j22917945492092_2_alg».proof.Proof.Spec
import proofs.«140293_j22917945492092_2_alg».proof.Proof.LibDotRecord
import Idealize.ShloMosaic.Lib.Pipeline.Value
import Idealize.ShloMosaic.Lib.ValueIdx

noncomputable section

namespace Gcn.Region3

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-block access, as the constant function. -/
theorem hz : (![0, 0] : Fin 2 → Nat) = fun _ => 0 := funext fun a => by fin_cases a <;> rfl

/-- The body's result at entry (p, q) of its block: the aggregated entry plus the bias of column q, cut below at zero. -/
theorem pay_apply (x0 : Vec Ideal S10000x64 .f32) (x1 : Vec Ideal S1x64 .f32) (p : Fin 10000) (q : Fin 64) :
    k3_pay1 x0 x1 (ix2 p q) = max (x0 (ix2 p q) + x1 (ix2 0 q)) (Ideal.ofBits .f32 0x00000000#32) := by
  unfold k3_pay1
  rw [maximumf_apply, addf_apply, broadcast_apply, shapeCast_self, shapeCast_self]
  rw [DotRecord.broadcastTo_1b_ab_apply]
  rfl

/-- The printed index maps over the grid: the row-blocked windows sit at block (t, 0), the bias row at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- At point t, entry (p, q) of the three blocks: the input block and the output block cover the same rows of their
    arrays, and the bias block is the whole bias row; so the body's entry is the whole-array function's entry under
    the output block. -/
theorem point_eq (A : Gcn.Spec.Mat 50000 64) (B : Gcn.Spec.Mat 1 64) (t : Fin cfg3.N) (p : Fin 10000) (q : Fin 64) :
    max (A (((cfg3.win 0).blk t).view.emb (ix2 p q)) + B (((cfg3.win 1).blk t).view.emb (ix2 0 q)))
        (Ideal.ofBits .f32 0x00000000#32)
      = Gcn.Spec.biasAct A B (((cfg3.win 2).blk t).view.emb (ix2 p q)) := by
  obtain ⟨e0, e1, e2, e3, e4, e5⟩ := idx_facts t
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [h0, h1]
  rfl

variable (V : (c : Dev nD) → (b : Ref sig .tc) → Buf (Elt Ideal) ((c : Thread nD τ).loc b))

/-- What point t writes back is block t of the whole-array function. -/
theorem flushed_eq (c : Dev nD) (t : Fin cfg3.N) :
    (dat3 (F := Ideal) V c).flushed 2 t
      = ((cfg3.win 2).blk t).view.read (Elt Ideal) (Gcn.Spec.biasAct (V c main_v65) (V c main_v66)) := by
  show (cfg3.win 2).cut (grid3.coords t) ((dat3 (F := Ideal) V c).after 2 t) = _
  rw [after3_2]
  unfold out3_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  refine (pay_apply (iblk3 V c 0 t) (iblk3 V c 1 t) p q).trans ?_
  exact point_eq (V c main_v65) (V c main_v66) t p q

/-- An index of the array is in point t's block iff each coordinate is in the block's range on its axis. -/
theorem mem_blk (t : Fin cfg3.N) (i : S50000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v67).slice (win3_2.rect t)).set ↔ _
  rw [View.set_slice_whole, Rect.mem_set_unit]
  exact Iff.rfl

/-- Row r of the array is in the block of point r / 10000. -/
theorem cover (i : S50000x64.Idx) :
    ∃ t : Fin cfg3.N, (cfg3.win 2).flush t = true ∧ i ∈ ((cfg3.win 2).blk t).view.set := by
  have hN : cfg3.N = 5 := N_3
  have hi0 : (i 0).val < 50000 := (i 0).isLt
  have hi1 : (i 1).val < 64 := (i 1).isLt
  have ht : (i 0).val / 10000 < cfg3.N := by rw [hN]; omega
  obtain ⟨-, -, -, -, e4, e5⟩ := idx_facts ⟨(i 0).val / 10000, ht⟩
  have e4' : win3_2.index ⟨(i 0).val / 10000, ht⟩ (0 : Fin 2) = (i 0).val / 10000 := e4
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    omega

/-- The region's output array after its last point: bias and rectifier of the aggregated rows, entry by entry. -/
theorem value (c : Dev nD) :
    (dat3 (F := Ideal) V c).arrAt 2 cfg3.N = Gcn.Spec.biasAct (V c main_v65) (V c main_v66) :=
  (dat3 (F := Ideal) V c).arrAt_eq_of_cover 2 _ (fun t _ => flushed_eq V c t) cover

end Gcn.Region3
end
-- ==== Proof.Region4.lean ====
/-
  The projection of layer three of the network: the row-blocked matrix product of the pipeline is the whole product.

  The pipeline walks the 50000 rows of the left operand in five blocks of 10000 rows; at each block it multiplies
  the block by the whole 64 × 2 weight matrix and writes the 10000 product rows back. On the extended reals the
  rounding of the operands to a narrower format is the identity, a cast of a block to its own shape is the block, and
  the matrix unit accumulating into zero is the textbook sum, so the block written at point t is rows
  10000 t … 10000 t + 9999 of the product x · w, and the five blocks tile the array: the output array ends holding x · w.
-/
import proofs.«140293_j22917945492092_2_alg».proof.Proof.Gen.KernelIdeal.Frame
import proofs.«140293_j22917945492092_2_alg».proof.Proof.Spec
import proofs.«140293_j22917945492092_2_alg».proof.Proof.LibDotRecord
import Idealize.ShloMosaic.Lib.Pipeline.Value

noncomputable section

namespace Gcn.Region4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The body's payload at entry (p, q): the sum over k of x0 (p, k) * x1 (k, q). -/
theorem pay_apply (x0 : Vec Ideal S10000x64 .f32) (x1 : Vec Ideal S64x2 .f32) (p : Fin 10000) (q : Fin 2) :
    k4_pay1 x0 x1 (ix2 p q) = ∑ k : Fin 64, x0 (ix2 p k) * x1 (ix2 k q) := by
  unfold k4_pay1
  refine (DotRecord.matmul_zero_apply dot_S10000x64_S64x2_S10000x2_1_0_0_1_n_n rfl rfl rfl rfl rfl rfl
    (truncf .bf16 (shapeCast S10000x64 x0 shapeCasts_S10000x64_S10000x64) bitsLt_bf16_f32) (truncf .bf16 x1 bitsLt_bf16_f32) none p q).trans ?_
  refine Finset.sum_congr rfl fun k _ => ?_
  show (shapeCast S10000x64 x0 shapeCasts_S10000x64_S10000x64) (ix2 p k) * x1 (ix2 k q) = x0 (ix2 p k) * x1 (ix2 k q)
  rw [shapeCast_self]

/-- The block indices at point t: the left operand and the output are at row block t, the weight at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point t is rows 10000 t … 10000 t + 9999 of the array. -/
theorem lhs_block_apply (c : Dev nD) (t : Fin cfg4.N) (p : Fin 10000) (k : Fin 64) (i : S50000x64.Idx)
    (hi0 : (i 0).val = 10000 * t.val + p.val) (hi1 : (i 1).val = k.val) :
    (iblk4 V c 0 t : Vec Ideal S10000x64 .f32) (ix2 p k) = (V c main_v67 : S50000x64.Idx → Ideal .f32) i := by
  obtain ⟨e0, e1, -⟩ := idx_facts t
  unfold iblk4
  rw [View.read_apply]
  show V c main_v67 _ = V c main_v67 _
  congr 1
  funext a
  apply Fin.ext
  match a with
  | ⟨0, _⟩ => show win4_0.index t 0 * 10000 + 1 * p.val = (i 0).val; rw [e0, hi0]; omega
  | ⟨1, _⟩ => show win4_0.index t 1 * 64 + 1 * k.val = (i 1).val; rw [e1, hi1]; omega

/-- The weight's block at every point is the whole array. -/
theorem rhs_block_apply (c : Dev nD) (t : Fin cfg4.N) (k : Fin 64) (q : Fin 2) :
    (iblk4 V c 1 t : Vec Ideal S64x2 .f32) (ix2 k q) = (V c main_arg6 : S64x2.Idx → Ideal .f32) (ix2 k q) := by
  obtain ⟨-, -, e0, e1, -⟩ := idx_facts t
  unfold iblk4
  rw [View.read_apply]
  show V c main_arg6 _ = V c main_arg6 _
  congr 1
  funext a
  apply Fin.ext
  match a with
  | ⟨0, _⟩ => show win4_1.index t 0 * 64 + 1 * k.val = k.val; rw [e0]; omega
  | ⟨1, _⟩ => show win4_1.index t 1 * 2 + 1 * q.val = q.val; rw [e1]; omega

/-- What point t writes back is block t of the product: rows 10000 t … 10000 t + 9999 of x · w. -/
theorem flushed_eq (c : Dev nD) (t : Fin cfg4.N) :
    (dat4 V c).flushed 2 t
      = ((cfg4.win 2).blk t).view.read (Elt Ideal) (Gcn.Spec.proj (M := 50000) (K := 64) (N := 2) (V c main_v67) (V c main_arg6)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x2) hz]
  funext j
  obtain ⟨p, q, rfl⟩ : ∃ (p : Fin 10000) (q : Fin 2), j = ix2 p q := ⟨j 0, j 1, eq_ix2 j⟩
  show k4_pay1 (iblk4 V c 0 t) (iblk4 V c 1 t) (ix2 p q)
    = Gcn.Spec.proj (M := 50000) (K := 64) (N := 2) (V c main_v67) (V c main_arg6) (((cfg4.win 2).blk t).view.emb (ix2 p q))
  have he0 : ((((cfg4.win 2).blk t).view.emb (ix2 p q)) 0).val = 10000 * t.val + p.val := by
    show win4_2.index t 0 * 10000 + 1 * p.val = _
    rw [(idx_facts t).2.2.2.2.1]; omega
  have he1 : ((((cfg4.win 2).blk t).view.emb (ix2 p q)) 1).val = q.val := by
    show win4_2.index t 1 * 2 + 1 * q.val = _
    rw [(idx_facts t).2.2.2.2.2]; omega
  refine (pay_apply (iblk4 V c 0 t) (iblk4 V c 1 t) p q).trans ?_
  refine Finset.sum_congr rfl fun k _ => ?_
  have hq : ((((cfg4.win 2).blk t).view.emb (ix2 p q)) 1 : Fin 2) = q := Fin.ext he1
  refine congrArg₂ (· * ·) (lhs_block_apply V c t p k _ he0 rfl) ?_
  refine (rhs_block_apply V c t k q).trans ?_
  show V c main_arg6 (ix2 k q) = V c main_arg6 (ix2 k ((((cfg4.win 2).blk t).view.emb (ix2 p q)) 1))
  rw [hq]

/-- Membership in the output's block at point t, axis by axis. -/
theorem mem_blk (t : Fin cfg4.N) (i : S50000x2.Idx) :
    i ∈ ((cfg4.win 2).blk t).view.set ↔ ∀ a : Fin 2, win4_2.index t a * S10000x2.size a ≤ (i a).val ∧ (i a).val < win4_2.index t a * S10000x2.size a + S10000x2.size a := by
  show i ∈ ((View.whole main_v68).slice (win4_2.rect t)).set ↔ _
  rw [View.set_slice_whole, Rect.mem_set_unit]
  exact Iff.rfl

/-- Row r of the output lies in the block of point r / 10000: the five blocks tile the array. -/
theorem cover (i : S50000x2.Idx) :
    ∃ t : Fin cfg4.N, (cfg4.win 2).flush t = true ∧ i ∈ ((cfg4.win 2).blk t).view.set := by
  have hi0 : (i 0).val < 50000 := (i 0).isLt
  have hi1 : (i 1).val < 2 := (i 1).isLt
  have hN : cfg4.N = 5 := N_4
  refine ⟨⟨(i 0).val / 10000, by rw [hN]; omega⟩, flush4_2 _, ?_⟩
  rw [mem_blk]
  obtain ⟨-, -, -, -, e0, e1⟩ := idx_facts ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e0]; show (i 0).val / 10000 * 10000 ≤ (i 0).val ∧ (i 0).val < (i 0).val / 10000 * 10000 + 10000; omega
  | ⟨1, _⟩ =>
    show win4_2.index _ (1 : Fin 2) * 2 ≤ (i 1).val ∧ (i 1).val < win4_2.index _ (1 : Fin 2) * 2 + 2
    rw [e1]; omega

/-- The output array of the region: the product of the left operand's array and the weight's, entry by entry. -/
theorem value (c : Dev nD) :
    (dat4 (F := Ideal) V c).arrAt 2 cfg4.N
      = Gcn.Spec.proj (M := 50000) (K := 64) (N := 2) (V c main_v67) (V c main_arg6) :=
  (dat4 V c).arrAt_eq_of_cover 2 (Gcn.Spec.proj (M := 50000) (K := 64) (N := 2) (V c main_v67) (V c main_arg6))
    (fun t _ => flushed_eq V c t) cover

end Gcn.Region4

end
-- ==== Proof.Region5.lean ====
/-
  The last dense stage of the network, the bias alone, through its row-blocked grid.

  The stage's grid has five points; point t reads rows 10000 t … 10000 t + 9999 of the aggregated [50000, 2] array and
  the whole [1, 2] bias row, and writes the same rows of the output array. At entry (p, q) of its block the body
  leaves x (p, q) + bias (0, q). So what point t writes back is block t of ONE function of the two arrays,
  entry (r, q) ↦ agg (r, q) + bias (0, q), and since row r lies in the block of point r / 10000 the output array
  ends holding that function.
-/
import proofs.«140293_j22917945492092_2_alg».proof.Proof.Gen.KernelIdeal.Frame
import proofs.«140293_j22917945492092_2_alg».proof.Proof.Spec
import proofs.«140293_j22917945492092_2_alg».proof.Proof.LibDotRecord
import Idealize.ShloMosaic.Lib.Pipeline.Value
import Idealize.ShloMosaic.Lib.ValueIdx

noncomputable section

namespace Gcn.Region5

open Cert.KernelIdeal Cert.KernelIdeal.Gen Idealize.ShloMosaic Idealize.ShloMosaic.TcCoe Idealize.SL.Sem
open Idealize.ShloMosaic.ValueIdx
open Idealize.ShloMosaic.Pipeline (Dat)

/-- The two zero offsets of a whole-block access, as the constant function. -/
theorem hz : (![0, 0] : Fin 2 → Nat) = fun _ => 0 := funext fun a => by fin_cases a <;> rfl

/-- The body's result at entry (p, q) of its block: the aggregated entry plus the bias of column q. -/
theorem pay_apply (x0 : Vec Ideal S10000x2 .f32) (x1 : Vec Ideal S1x2 .f32) (p : Fin 10000) (q : Fin 2) :
    k5_pay1 x0 x1 (ix2 p q) = x0 (ix2 p q) + x1 (ix2 0 q) := by
  unfold k5_pay1
  rw [addf_apply, shapeCast_self, shapeCast_self]
  rw [DotRecord.broadcastTo_1b_ab_apply]

/-- The printed index maps over the grid: the row-blocked windows sit at block (t, 0), the bias row at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- At point t, entry (p, q) of the three blocks: the input block and the output block cover the same rows of their
    arrays, and the bias block is the whole bias row; so the body's entry is the whole-array function's entry under
    the output block. -/
theorem point_eq (A : Gcn.Spec.Mat 50000 2) (B : Gcn.Spec.Mat 1 2) (t : Fin cfg5.N) (p : Fin 10000) (q : Fin 2) :
    A (((cfg5.win 0).blk t).view.emb (ix2 p q)) + B (((cfg5.win 1).blk t).view.emb (ix2 0 q))
      = Gcn.Spec.biasOnly A B (((cfg5.win 2).blk t).view.emb (ix2 p q)) := by
  obtain ⟨e0, e1, e2, e3, e4, e5⟩ := idx_facts t
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 2 + 1 * q.val = win5_2.index t (1 : Fin 2) * 2 + 1 * q.val; omega
  have h1 : ((cfg5.win 1).blk t).view.emb (ix2 0 q) = ix2 0 ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 2 + 1 * q.val = win5_2.index t (1 : Fin 2) * 2 + 1 * q.val; omega
  rw [h0, h1]
  rfl

variable (V : (c : Dev nD) → (b : Ref sig .tc) → Buf (Elt Ideal) ((c : Thread nD τ).loc b))

/-- What point t writes back is block t of the whole-array function. -/
theorem flushed_eq (c : Dev nD) (t : Fin cfg5.N) :
    (dat5 (F := Ideal) V c).flushed 2 t
      = ((cfg5.win 2).blk t).view.read (Elt Ideal) (Gcn.Spec.biasOnly (V c main_v81) (V c main_v82)) := by
  show (cfg5.win 2).cut (grid5.coords t) ((dat5 (F := Ideal) V c).after 2 t) = _
  rw [after5_2]
  unfold out5_2
  rw [View.canon_unit_zero hz]
  simp only [View.ld_unit_zero (S := S10000x2) hz, View.ld_unit_zero (S := S1x2) hz]
  funext j
  obtain ⟨p, q, rfl⟩ : ∃ (p : Fin 10000) (q : Fin 2), j = ix2 p q := ⟨j 0, j 1, eq_ix2 j⟩
  refine (pay_apply (iblk5 V c 0 t) (iblk5 V c 1 t) p q).trans ?_
  exact point_eq (V c main_v81) (V c main_v82) t p q

/-- An index of the array is in point t's block iff each coordinate is in the block's range on its axis. -/
theorem mem_blk (t : Fin cfg5.N) (i : S50000x2.Idx) :
    i ∈ ((cfg5.win 2).blk t).view.set ↔ ∀ a : Fin 2, win5_2.index t a * S10000x2.size a ≤ (i a).val
      ∧ (i a).val < win5_2.index t a * S10000x2.size a + S10000x2.size a := by
  show i ∈ ((View.whole main_v83).slice (win5_2.rect t)).set ↔ _
  rw [View.set_slice_whole, Rect.mem_set_unit]
  exact Iff.rfl

/-- Row r of the array is in the block of point r / 10000. -/
theorem cover (i : S50000x2.Idx) :
    ∃ t : Fin cfg5.N, (cfg5.win 2).flush t = true ∧ i ∈ ((cfg5.win 2).blk t).view.set := by
  have hN : cfg5.N = 5 := N_5
  have hi0 : (i 0).val < 50000 := (i 0).isLt
  have hi1 : (i 1).val < 2 := (i 1).isLt
  have ht : (i 0).val / 10000 < cfg5.N := by rw [hN]; omega
  obtain ⟨-, -, -, -, e4, e5⟩ := idx_facts ⟨(i 0).val / 10000, ht⟩
  have e4' : win5_2.index ⟨(i 0).val / 10000, ht⟩ (0 : Fin 2) = (i 0).val / 10000 := e4
  refine ⟨⟨(i 0).val / 10000, ht⟩, flush5_2 _, ?_⟩
  rw [mem_blk]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    omega
  | ⟨1, _⟩ =>
    show win5_2.index ⟨(i 0).val / 10000, ht⟩ (1 : Fin 2) * 2 ≤ (i 1).val
      ∧ (i 1).val < win5_2.index ⟨(i 0).val / 10000, ht⟩ (1 : Fin 2) * 2 + 2
    omega

/-- The region's output array after its last point: the aggregated rows plus the bias row, entry by entry. -/
theorem value (c : Dev nD) :
    (dat5 (F := Ideal) V c).arrAt 2 cfg5.N = Gcn.Spec.biasOnly (V c main_v81) (V c main_v82) :=
  (dat5 (F := Ideal) V c).arrAt_eq_of_cover 2 _ (fun t _ => flushed_eq V c t) cover

end Gcn.Region5
end
-- ==== Proof.ChainD.lean ====
/-
  The idealized kernel program's buffer contents, boundary by boundary (part D).

  The contents at each boundary are a fold from the launch memory: a host stretch applies its operations, a launch
  replaces its output array by what its grid points write back and leaves every other buffer as it was.
  The fourth launch applies bias and rectifier, the fifth the third projection; the fourth host stretch aggregates it and recasts the last bias as a row; the sixth launch adds the bias: the program's result.
-/
import proofs.«140293_j22917945492092_2_alg».proof.Proof.Gen.KernelIdeal.Frame
import proofs.«140293_j22917945492092_2_alg».proof.Proof.ChainC
import proofs.«140293_j22917945492092_2_alg».proof.Proof.Region3
import proofs.«140293_j22917945492092_2_alg».proof.Proof.Region4
import proofs.«140293_j22917945492092_2_alg».proof.Proof.Region5

set_option maxRecDepth 16384

noncomputable section

namespace Gcn.Chain

open Cert.KernelIdeal Cert.KernelIdeal.Gen
open Idealize.ShloMosaic Idealize.ShloMosaic.TcCoe Idealize.SL.Sem Idealize.ShloMosaic.StableHlo Idealize.ShloMosaic.ValueIdx

variable [Cert.KernelIdeal.Facts] [Cert.ReferenceIdeal.Facts]
variable (m : (ℓ : Loc nD τ sig) → Buf (Elt Ideal) ℓ) (ρ : Dev nD → PrngReg) (c : Dev nD)

/-! ## After the fourth launch (bias, rectifier) -/

theorem W7_v5 : W7 m ρ c (Proc.devRef .tc main_v5) = (Gcn.Host.srcIdx (m ((c : Thread nD τ).loc main_arg1))) :=
  (W7_of_ne m ρ c main_v5 (by decide)).trans (W6_v5 m ρ c)

theorem W7_v6 : W7 m ρ c (Proc.devRef .tc main_v6) = (Gcn.Host.dstIdx (m ((c : Thread nD τ).loc main_arg1))) :=
  (W7_of_ne m ρ c main_v6 (by decide)).trans (W6_v6 m ρ c)

theorem W7_v31 : W7 m ρ c (Proc.devRef .tc main_v31) = (Gcn.Host.edgeNorm (Gcn.Host.srcIdx (m ((c : Thread nD τ).loc main_arg1))) (Gcn.Host.dstIdx (m ((c : Thread nD τ).loc main_arg1)))) :=
  (W7_of_ne m ρ c main_v31 (by decide)).trans (W6_v31 m ρ c)

theorem W7_arg6 : W7 m ρ c (Proc.devRef .tc main_arg6) = (m ((c : Thread nD τ).loc main_arg6)) :=
  (W7_of_ne m ρ c main_arg6 (by decide)).trans (W6_arg6 m ρ c)

theorem W7_arg7 : W7 m ρ c (Proc.devRef .tc main_arg7) = (m ((c : Thread nD τ).loc main_arg7)) :=
  (W7_of_ne m ρ c main_arg7 (by decide)).trans (W6_arg7 m ρ c)

theorem W7_v67 : W7 m ρ c (Proc.devRef .tc main_v67) = (Gcn.Spec.biasActV (Gcn.Host.aggOf64 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (Gcn.Spec.normActV 0x3727C5AC#32 (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) (m ((c : Thread nD τ).loc main_arg3)) (m ((c : Thread nD τ).loc main_arg8)) (m ((c : Thread nD τ).loc main_arg9)) (m ((c : Thread nD τ).loc main_arg10)) (m ((c : Thread nD τ).loc main_arg11))) (m ((c : Thread nD τ).loc main_arg4)))) (m ((c : Thread nD τ).loc main_arg5))) := by
  refine (W7_arr m ρ c 2).trans ((Gcn.Region3.value (V6 m ρ) c).trans ?_)
  show Gcn.Spec.biasAct (W6 m ρ c (Proc.devRef .tc main_v65)) (W6 m ρ c (Proc.devRef .tc main_v66)) = _
  rw [W6_v65 m ρ c]
  exact Gcn.Spec.biasAct_eq_V _ _ _ (W6_v66 m ρ c)

/-! ## After the fifth launch (the third projection) -/

theorem W8_v5 : W8 m ρ c (Proc.devRef .tc main_v5) = (Gcn.Host.srcIdx (m ((c : Thread nD τ).loc main_arg1))) :=
  (W8_of_ne m ρ c main_v5 (by decide)).trans (W7_v5 m ρ c)

theorem W8_v6 : W8 m ρ c (Proc.devRef .tc main_v6) = (Gcn.Host.dstIdx (m ((c : Thread nD τ).loc main_arg1))) :=
  (W8_of_ne m ρ c main_v6 (by decide)).trans (W7_v6 m ρ c)

theorem W8_v31 : W8 m ρ c (Proc.devRef .tc main_v31) = (Gcn.Host.edgeNorm (Gcn.Host.srcIdx (m ((c : Thread nD τ).loc main_arg1))) (Gcn.Host.dstIdx (m ((c : Thread nD τ).loc main_arg1)))) :=
  (W8_of_ne m ρ c main_v31 (by decide)).trans (W7_v31 m ρ c)

theorem W8_arg7 : W8 m ρ c (Proc.devRef .tc main_arg7) = (m ((c : Thread nD τ).loc main_arg7)) :=
  (W8_of_ne m ρ c main_arg7 (by decide)).trans (W7_arg7 m ρ c)

theorem W8_v68 : W8 m ρ c (Proc.devRef .tc main_v68) = (Gcn.Spec.proj (Gcn.Spec.biasActV (Gcn.Host.aggOf64 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (Gcn.Spec.normActV 0x3727C5AC#32 (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) (m ((c : Thread nD τ).loc main_arg3)) (m ((c : Thread nD τ).loc main_arg8)) (m ((c : Thread nD τ).loc main_arg9)) (m ((c : Thread nD τ).loc main_arg10)) (m ((c : Thread nD τ).loc main_arg11))) (m ((c : Thread nD τ).loc main_arg4)))) (m ((c : Thread nD τ).loc main_arg5))) (m ((c : Thread nD τ).loc main_arg6))) := by
  refine (W8_arr m ρ c 2).trans ((Gcn.Region4.value (V7 m ρ) c).trans ?_)
  show Gcn.Spec.proj (W7 m ρ c (Proc.devRef .tc main_v67)) (W7 m ρ c (Proc.devRef .tc main_arg6)) = _
  rw [W7_v67 m ρ c, W7_arg6]

/-! ## After the fourth host stretch (the third aggregation) -/

theorem W9_v81 : W9 m ρ c (Proc.devRef .tc main_v81) = (Gcn.Host.aggOf2 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (Gcn.Spec.biasActV (Gcn.Host.aggOf64 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (Gcn.Spec.normActV 0x3727C5AC#32 (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) (m ((c : Thread nD τ).loc main_arg3)) (m ((c : Thread nD τ).loc main_arg8)) (m ((c : Thread nD τ).loc main_arg9)) (m ((c : Thread nD τ).loc main_arg10)) (m ((c : Thread nD τ).loc main_arg11))) (m ((c : Thread nD τ).loc main_arg4)))) (m ((c : Thread nD τ).loc main_arg5))) (m ((c : Thread nD τ).loc main_arg6)))) := by
  show StableHlo.after hostOps5 (W8 m ρ c) (Proc.devRef .tc main_v81) = _
  after_results_simp
  rw [W8_v5 m ρ c, W8_v6 m ρ c, W8_v31 m ρ c, W8_v68 m ρ c]
  rfl

theorem W9_v82 (q : Fin 2) : (W9 m ρ c (Proc.devRef .tc main_v82) : Gcn.Spec.Mat 1 2) (ix2 0 q) = (m ((c : Thread nD τ).loc main_arg7)) (ix1 q) := by
  show (StableHlo.after hostOps5 (W8 m ρ c) (Proc.devRef .tc main_v82) : Gcn.Spec.Mat 1 2) (ix2 0 q) = _
  after_results_simp
  rw [W8_arg7 m ρ c]
  exact TileForms.rowCast_apply _ _ q

/-! ## After the last launch: the program's result -/

theorem W10_v83 : W10 m ρ c (Proc.devRef .tc main_v83) = (Gcn.Spec.biasOnlyV (Gcn.Host.aggOf2 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (Gcn.Spec.biasActV (Gcn.Host.aggOf64 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (Gcn.Spec.normActV 0x3727C5AC#32 (Gcn.Host.aggOf128 (Gcn.Host.srcIdx (m ((c : Thread nD τ).loc main_arg1))) (Gcn.Host.dstIdx (m ((c : Thread nD τ).loc main_arg1))) (Gcn.Host.edgeNorm (Gcn.Host.srcIdx (m ((c : Thread nD τ).loc main_arg1))) (Gcn.Host.dstIdx (m ((c : Thread nD τ).loc main_arg1)))) (Gcn.Spec.proj (m ((c : Thread nD τ).loc main_arg0)) (m ((c : Thread nD τ).loc main_arg2)))) (m ((c : Thread nD τ).loc main_arg3)) (m ((c : Thread nD τ).loc main_arg8)) (m ((c : Thread nD τ).loc main_arg9)) (m ((c : Thread nD τ).loc main_arg10)) (m ((c : Thread nD τ).loc main_arg11))) (m ((c : Thread nD τ).loc main_arg4)))) (m ((c : Thread nD τ).loc main_arg5))) (m ((c : Thread nD τ).loc main_arg6)))) (m ((c : Thread nD τ).loc main_arg7))) := by
  refine (W10_arr m ρ c 2).trans ((Gcn.Region5.value (V9 m ρ) c).trans ?_)
  show Gcn.Spec.biasOnly (W9 m ρ c (Proc.devRef .tc main_v81)) (W9 m ρ c (Proc.devRef .tc main_v82)) = _
  rw [W9_v81 m ρ c]
  exact Gcn.Spec.biasOnly_eq_V _ _ _ (W9_v82 m ρ c)

end Gcn.Chain

end
-- ==== Proof.RefNet.lean ====
/-
  The reference's result is the network's composition of host stages.

  The reference computes the self-looped edge list, the degrees and the edge weights anew in each of its three layers,
  from the same edge list by the same operations; its result term therefore is the composition of the named stages
  applied to the arguments.
-/
import proofs.«140293_j22917945492092_2_alg».proof.Proof.Gen.ReferenceIdeal.Run
import proofs.«140293_j22917945492092_2_alg».proof.Proof.HostSpec

noncomputable section

namespace Gcn.RefNet

open Idealize.ShloMosaic Idealize.ShloMosaic.TcCoe Idealize.SL.Sem
open Cert.ReferenceIdeal Cert.ReferenceIdeal.Gen Cert.ReferenceIdeal.Value

variable {F : FTy → Type} [FloatOps F] [Cert.ReferenceIdeal.Facts]

set_option maxRecDepth 16384 in
/-- The reference run's result term is the network applied to the argument arrays. -/
theorem res_eq_net (m : (ℓ : Loc nD τ sig) → Buf (Elt F) ℓ) (c : Dev nD) :
    res_main_v158 m c = Gcn.Host.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v158
  rfl

end Gcn.RefNet

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.LibHostSlab.lean ====
/-
  Two host forms read at an entry.

  The reference slices one `[1, a, b]` slab out of a weight stack `[M, a, b]`, drops the unit axis and transposes the
  matrix: at `(j, i)` the result is the stack at `(k, i, j)`. And it multiplies matrices by the host's
  `dot_general` contracting the left operand's columns with the right operand's rows: on the extended reals, at
  `(p, q)`, the sum over the contracted axis, whatever record the program prints for those dimension numbers.
-/
import proofs.«140293_j22917945492092_2_alg».proof.Proof.LibDotRecord
import Idealize.ShloMosaic.Lib.ValueLayout

namespace Bilinear.Host

open Idealize.ShloMosaic Idealize.ShloMosaic.ValueIdx

/-- The host's plain matrix product at `(p, q)`: the sum over the contracted axis. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (prec : Option ContractPrecision)
    (p : Fin M) (q : Fin N) :
    Host.dotGeneral d prec l r (ix2 p q) = ∑ k : Fin K, l (ix2 p k) * r (ix2 k q) := by
  have e := DotRecord.eq_plain d h1 h2 h3 h4 h5 h6
  subst e
  exact Gcn.Lib.plain_dotGeneral_apply l r prec .single p q

/-- Slab `k` of a stack, sliced out, read as a matrix and transposed. -/
theorem slabT_apply {α : Type} {M a b : ℕ} (A : (⟨3, ![M, a, b]⟩ : Shape).Idx → α) (o : ℕ) (k : Fin M) (hk : k.val = o)
    (hs : (⟨3, ![M, a, b]⟩ : Shape).Slices ![o, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o, 0, 0] A hs) hc) ht (ix2 j i)
      = A (ix3 k i j) :=
  (transpose_ix2_apply _ ht j i).trans <| (shapeCast_1ab_ab_apply _ hc i j).trans <|
    extractStridedSlice_apply ![o, 0, 0] A hs (ix3 (0 : Fin 1) i j) (ix3 k i j) (fun ax => by
      match ax with
      | ⟨0, _⟩ => show k.val = o + 0; omega
      | ⟨1, _⟩ => exact (Nat.zero_add _).symm
      | ⟨2, _⟩ => exact (Nat.zero_add _).symm)

end Bilinear.Host
-- ==== Proof.RefDense.lean ====
/-
  The reference's dense stages, entry by entry.

  On the extended reals the host's matrix product reads, at entry (p, q), as the sum over the contracted axis; a
  vector repeated down the rows reads, at (p, q), its entry q; a literal repeated over a shape reads the literal
  everywhere. So each dense stage of the reference is the specification's entry-wise function.
-/
import proofs.«140293_j22917945492092_2_alg».proof.Proof.HostSpec
import proofs.«140293_j22917945492092_2_alg».proof.Proof.Spec
import proofs.«140293_j22917945492092_2_alg».proof.Proof.LibHostRead
import proofs.«140293_j22917945492092_2_alg».proof.Proof.LibHostSlab

noncomputable section

namespace Gcn.RefDense

open Idealize.ShloMosaic Idealize.ShloMosaic.ValueIdx Cert.ReferenceIdeal Gcn.Spec

variable [Cert.ReferenceIdeal.Facts]

open Cert.ReferenceIdeal.Facts₀ Cert.ReferenceIdeal.Facts

/-- A vector repeated down the rows of an `a × b` matrix reads, at `(p, q)`, its entry `q`. -/
theorem rows_apply {a b : ℕ} (v : Row b)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![1, b]⟩ ![1] h1 v) (ix2 p q) = v (ix1 q) :=
  (Hmu.Lib.bcast_1b_ab_apply _ h2 p q).trans (Hmu.Lib.bcast_b_1b_apply v h1 0 q)

theorem dense1_eq (x : Mat 50000 128) (w : Mat 128 128) : Gcn.Host.dense1 (F := Ideal) x w = proj x w := by
  funext i
  obtain ⟨p, q, rfl⟩ : ∃ (p : Fin 50000) (q : Fin 128), i = ix2 p q := ⟨i 0, i 1, eq_ix2 i⟩
  exact Bilinear.Host.dot_apply dot_S50000x128_S128x128_S50000x128_1_0_0_1_n_n rfl rfl rfl rfl rfl rfl x w none p q

theorem dense2_eq (x : Mat 50000 128) (w : Mat 128 64) : Gcn.Host.dense2 (F := Ideal) x w = proj x w := by
  funext i
  obtain ⟨p, q, rfl⟩ : ∃ (p : Fin 50000) (q : Fin 64), i = ix2 p q := ⟨i 0, i 1, eq_ix2 i⟩
  exact Bilinear.Host.dot_apply dot_S50000x128_S128x64_S50000x64_1_0_0_1_n_n rfl rfl rfl rfl rfl rfl x w none p q

theorem dense3_eq (x : Mat 50000 64) (w : Mat 64 2) : Gcn.Host.dense3 (F := Ideal) x w = proj x w := by
  funext i
  obtain ⟨p, q, rfl⟩ : ∃ (p : Fin 50000) (q : Fin 2), i = ix2 p q := ⟨i 0, i 1, eq_ix2 i⟩
  exact Bilinear.Host.dot_apply dot_S50000x64_S64x2_S50000x2_1_0_0_1_n_n rfl rfl rfl rfl rfl rfl x w none p q

theorem act1_eq (a : Mat 50000 128) (b g be mu va : Row 128) :
    Gcn.Host.act1 (F := Ideal) a b g be mu va = normActV 0x3727C5AC#32 a b g be mu va := by
  funext i
  obtain ⟨p, q, rfl⟩ : ∃ (p : Fin 50000) (q : Fin 128), i = ix2 p q := ⟨i 0, i 1, eq_ix2 i⟩
  show max ((((a (ix2 p q) + broadcastInDim S50000x128 ![0, 1] bcast_S1x128_S50000x128_0_1 (broadcastInDim S1x128 ![1] bcast_S128_S1x128_1 b) (ix2 p q))
        - broadcastInDim S50000x128 ![0, 1] bcast_S1x128_S50000x128_0_1 (broadcastInDim S1x128 ![1] bcast_S128_S1x128_1 mu) (ix2 p q))
        * broadcastInDim S50000x128 ![0, 1] bcast_S1x128_S50000x128_0_1 (broadcastInDim S1x128 ![1] bcast_S128_S1x128_1
            (Host.rsqrt (addf va (broadcastInDim S128 ![] bcast_S_S128 (constant (F := Ideal) S_ .f32 0x3727C5AC#32))))) (ix2 p q))
        * broadcastInDim S50000x128 ![0, 1] bcast_S1x128_S50000x128_0_1 (broadcastInDim S1x128 ![1] bcast_S128_S1x128_1 g) (ix2 p q)
        + broadcastInDim S50000x128 ![0, 1] bcast_S1x128_S50000x128_0_1 (broadcastInDim S1x128 ![1] bcast_S128_S1x128_1 be) (ix2 p q))
      (broadcastInDim S50000x128 ![] bcast_S_S50000x128 (constant (F := Ideal) S_ .f32 0x00000000#32) (ix2 p q)) = _
  rw [rows_apply b, rows_apply mu, rows_apply g, rows_apply be, rows_apply, Hmu.Lib.bcast_const_apply]
  show max ((((a (ix2 p q) + b (ix1 q)) - mu (ix1 q)) * Ideal.rsqrt (va (ix1 q) + broadcastInDim S128 ![] bcast_S_S128 (constant (F := Ideal) S_ .f32 0x3727C5AC#32) (ix1 q)))
      * g (ix1 q) + be (ix1 q)) (Ideal.ofBits .f32 0x00000000#32) = _
  rw [Hmu.Lib.bcast_const_apply]
  rfl

theorem act2_eq (a : Mat 50000 64) (b : Row 64) : Gcn.Host.act2 (F := Ideal) a b = biasActV a b := by
  funext i
  obtain ⟨p, q, rfl⟩ : ∃ (p : Fin 50000) (q : Fin 64), i = ix2 p q := ⟨i 0, i 1, eq_ix2 i⟩
  show max (a (ix2 p q) + broadcastInDim S50000x64 ![0, 1] bcast_S1x64_S50000x64_0_1 (broadcastInDim S1x64 ![1] bcast_S64_S1x64_1 b) (ix2 p q))
      (broadcastInDim S50000x64 ![] bcast_S_S50000x64 (constant (F := Ideal) S_ .f32 0x00000000#32) (ix2 p q)) = _
  rw [rows_apply b, Hmu.Lib.bcast_const_apply]
  rfl

theorem act3_eq (a : Mat 50000 2) (b : Row 2) : Gcn.Host.act3 (F := Ideal) a b = biasOnlyV a b := by
  funext i
  obtain ⟨p, q, rfl⟩ : ∃ (p : Fin 50000) (q : Fin 2), i = ix2 p q := ⟨i 0, i 1, eq_ix2 i⟩
  show a (ix2 p q) + broadcastInDim S50000x2 ![0, 1] bcast_S1x2_S50000x2_0_1 (broadcastInDim S1x2 ![1] bcast_S2_S1x2_1 b) (ix2 p q) = _
  rw [rows_apply b]
  rfl

end Gcn.RefDense

end
-- ==== Proof.RefValue.lean ====
/-
  The reference's network, with its dense stages read entry by entry.

  Each dense stage of the reference is the specification's entry-wise function; the aggregations stay the shared
  composites. The network is then the alternation of the two.
-/
import proofs.«140293_j22917945492092_2_alg».proof.Proof.RefDense

noncomputable section

namespace Gcn.RefValue

open Idealize.ShloMosaic Cert.ReferenceIdeal Gcn.Spec

variable [Cert.ReferenceIdeal.Facts]

/-- The network on the extended reals: projection, aggregation and entry-wise stage, three times. -/
theorem net_eq (A0 : Mat 50000 128) (A1 : (⟨S2x800000, .i32⟩ : BufTy).Contents (Elt Ideal)) (A2 : Mat 128 128) (A3 : Row 128) (A4 : Mat 128 64) (A5 : Row 64) (A6 : Mat 64 2) (A7 : Row 2) (A8 A9 A10 A11 : Row 128) :
    Gcn.Host.net (F := Ideal) A0 A1 A2 A3 A4 A5 A6 A7 A8 A9 A10 A11
      = biasOnlyV (Gcn.Host.aggOf2 (Gcn.Host.srcIdx A1) (Gcn.Host.dstIdx A1) (Gcn.Host.edgeNorm (Gcn.Host.srcIdx A1) (Gcn.Host.dstIdx A1)) (proj (biasActV (Gcn.Host.aggOf64 (Gcn.Host.srcIdx A1) (Gcn.Host.dstIdx A1) (Gcn.Host.edgeNorm (Gcn.Host.srcIdx A1) (Gcn.Host.dstIdx A1)) (proj (normActV 0x3727C5AC#32 (Gcn.Host.aggOf128 (Gcn.Host.srcIdx A1) (Gcn.Host.dstIdx A1) (Gcn.Host.edgeNorm (Gcn.Host.srcIdx A1) (Gcn.Host.dstIdx A1)) (proj A0 A2)) A3 A8 A9 A10 A11) A4)) A5) A6)) A7 := by
  unfold Gcn.Host.net
  rw [Gcn.RefDense.dense1_eq, Gcn.RefDense.act1_eq, Gcn.RefDense.dense2_eq, Gcn.RefDense.act2_eq, Gcn.RefDense.dense3_eq,
    Gcn.RefDense.act3_eq]

end Gcn.RefValue

end
-- ==== Proof.lean ====
/-
  A three-layer graph convolution network: a tiled kernel program against a plain reference.

  Each layer projects the node features by a weight matrix, aggregates the projected rows along the edges of the
  self-looped graph with the symmetric degree weights, and applies an entry-wise stage (bias; in the first layer a
  normalisation with fixed statistics; in the first two layers a rectifier). The kernel program computes the edge
  data once and runs the three projections and the three entry-wise stages as tiled launches over blocks of rows;
  the reference recomputes the edge data in every layer and uses host operations throughout.

  On the extended reals the two agree entry by entry with no condition on the inputs. A launch's output array is its
  dense stage applied to the arrays it was entered with: the matrix unit accumulating into zero is the sum over the
  contracted axis, as is the host's matrix product, a change of float format is the identity, and a parameter row
  broadcast down a tile reads the vector's entry, as does the host's broadcast. The aggregation along the edges is
  the same composite of host operations in both programs, applied to equal projections; it is carried as one
  function and never opened. The kernel program's result is read off its run boundary by boundary; the reference's
  result is the composition of the same stages.

  The idealization rewrote nothing, so the kernel program's idealization is its own text. The three frames are the
  generated ones (the reference's is its run with the result dropped).
-/
import proofs.«140293_j22917945492092_2_alg».proof.Defs
import proofs.«140293_j22917945492092_2_alg».proof.Proof.Gen.Kernel
import proofs.«140293_j22917945492092_2_alg».proof.Proof.Gen.Kernel.Skeleton
import proofs.«140293_j22917945492092_2_alg».proof.Proof.Gen.Kernel.Launch
import proofs.«140293_j22917945492092_2_alg».proof.Proof.Gen.Kernel.Points
import proofs.«140293_j22917945492092_2_alg».proof.Proof.Gen.Kernel.Frame
import proofs.«140293_j22917945492092_2_alg».proof.Proof.Gen.KernelIdeal
import proofs.«140293_j22917945492092_2_alg».proof.Proof.Gen.KernelIdeal.Skeleton
import proofs.«140293_j22917945492092_2_alg».proof.Proof.Gen.KernelIdeal.Launch
import proofs.«140293_j22917945492092_2_alg».proof.Proof.Gen.KernelIdeal.Points
import proofs.«140293_j22917945492092_2_alg».proof.Proof.Gen.KernelIdeal.Frame
import proofs.«140293_j22917945492092_2_alg».proof.Proof.Gen.ReferenceIdeal
import proofs.«140293_j22917945492092_2_alg».proof.Proof.Gen.Pre_finite_inputs
import proofs.«140293_j22917945492092_2_alg».proof.Proof.Gen.ReferenceIdeal.Run
import proofs.«140293_j22917945492092_2_alg».proof.Proof.Gen.ReferenceIdeal.Read
import proofs.«140293_j22917945492092_2_alg».proof.Proof.KernelRun
import proofs.«140293_j22917945492092_2_alg».proof.Proof.ChainD
import proofs.«140293_j22917945492092_2_alg».proof.Proof.RefNet
import proofs.«140293_j22917945492092_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's value of the (agreeing) arguments: the kernel program's by its run read
    boundary by boundary, the reference's as the composition of the same stages. -/
theorem algebraic : Cert.algebraic_KernelIdeal_ReferenceIdeal := by
  intro m ρ m' ρ' _ hagree
  refine ⟨fun c => Cert.KernelIdeal.Gen.W10 m ρ c (Proc.devRef .tc Cert.KernelIdeal.main_v83), Gcn.KernelRun.run_named m ρ, ?_⟩
  refine (θ_run Cert.ReferenceIdeal.defs _ _).mono (fun _ h c => ⟨(h c).1.trans ?_, (h c).2⟩)
    (Cert.ReferenceIdeal.Value.run (F := Ideal) m' ρ')
  rw [Gcn.RefNet.res_eq_net m' c, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2.1, (hagree c).2.2.2.2.2.2.2.2.2.2.2]
  exact (Gcn.RefValue.net_eq _ _ _ _ _ _ _ _ _ _ _ _).trans (Gcn.Chain.W10_v83 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
